-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x2 : Shape := ⟨2, ![1600000, 2]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40x40 : Shape := ⟨2, ![40, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_

variable [Facts]

def fn_part2 {F : FTy → Type} [FloatOps F] (main_arg8 : FVec F S40x40 .f32) (main_arg9 : FVec F S40 .f32) (main_v33 : IVec S_ 1) : IVec S_ 1 :=
  let main_v34 : FVec F S40x40 .f32 := Host.absf main_arg8
  let main_cst_12 : FVec F S_ .f32 := constant S_ .f32 0x7F800000#32
  let main_v35 : FVec F S40x40 .f32 := broadcastInDim S40x40 ![] bcast_S_S40x40 main_cst_12
  let main_v36 : IVec S40x40 1 := cmpf .olt main_v34 main_v35
  let main_c_13 : IVec S_ 1 := constantI S_ 1 1#1
  let main_v37 : IVec S_ 1 := (fun x v => Host.reduce IntOp.andi x v reducesTo_S40x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x40 .f32) (main_arg7 : FVec F S40 .f32) (main_arg8 : FVec F S40x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S1600000x2 32) (main_arg2 : FVec F S128x128 .f32) (main_arg3 : FVec F S128 .f32) (main_arg4 : FVec F S128x128 .f32) (main_arg5 : FVec F S128 .f32) (main_arg6 : FVec F S128x40 .f32) (main_arg7 : FVec F S40 .f32) (main_arg8 : FVec F S40x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S1600000x2 : Shape := ⟨2, ![1600000, 2]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40x40 : Shape := ⟨2, ![40, 40]⟩
abbrev S1600000x1 : Shape := ⟨2, ![1600000, 1]⟩
abbrev S1600000 : Shape := ⟨1, ![1600000]⟩
abbrev S_ : Shape := ⟨0, ![]⟩
abbrev S1600000x128 : Shape := ⟨2, ![1600000, 128]⟩
abbrev S100000x40 : Shape := ⟨2, ![100000, 40]⟩
abbrev S5000x128 : Shape := ⟨2, ![5000, 128]⟩
abbrev S5000x40 : Shape := ⟨2, ![5000, 40]⟩
abbrev S1x128 : Shape := ⟨2, ![1, 128]⟩
abbrev S1600000x40 : Shape := ⟨2, ![1600000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 42
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000x2, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S40x40, .f32⟩
  | .hbm, ⟨9, _⟩ => ⟨S40, .f32⟩
  | .hbm, ⟨10, _⟩ => ⟨S1600000x1, .i32⟩
  | .hbm, ⟨11, _⟩ => ⟨S1600000, .i32⟩
  | .hbm, ⟨12, _⟩ => ⟨S1600000x1, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x40, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x40, .f32⟩
  | .hbm, ⟨37, _⟩ => ⟨S_, .f32⟩
  | .hbm, ⟨38, _⟩ => ⟨S100000x40, .f32⟩
  | .hbm, ⟨39, _⟩ => ⟨S1600000x1, .i32⟩
  | .hbm, ⟨40, _⟩ => ⟨S100000x40, .f32⟩
  | .hbm, ⟨41, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | .local _ .vmem, ⟨14, _⟩ => ⟨S5000x40, .f32⟩
  | .local _ .vmem, ⟨15, _⟩ => ⟨S40, .f32⟩
  | .local _ .vmem, ⟨16, _⟩ => ⟨S40x40, .f32⟩
  | .local _ .vmem, ⟨17, _⟩ => ⟨S40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  inb_S40x40_S40x40_0_0 : ∀ a, (![0, 0] : Fin 2 → Nat) a + S40x40.size a ≤ S40x40.size a
  h_S40x40 : 0 < S40x40.numel
  reduces_S5000x40_S5000 : S5000x40.Reduces [1] S5000
  shapeCasts_S5000_S5000x1 : S5000.ShapeCasts S5000x1
  broadcasts_S5000x1_S5000x40 : S5000x1.Broadcasts S5000x40
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S5000x40_S40x40_S5000x40_1_0_0_1_n_n_wf : DotDims.WF S5000x40 S40x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x40.size a ≤ S128x40.size a
  hwx0_6 : ∀ i : grid0.Coords, EltTy.bits .f32 = 32 ∨ (Rect.block (s := S128x40) S128x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x40.size a ≤ S100000x40.size a
  hwx0_7 : ∀ i : grid0.Coords, EltTy.bits .f32 = 32 ∨ (Rect.block (s := S100000x40) S5000x40.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x40.size a ≤ S100000x40.size a
  hwx1_1 : ∀ i : grid1.Coords, EltTy.bits .f32 = 32 ∨ (Rect.block (s := S100000x40) S5000x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x40.size a ≤ S40x40.size a
  hwx1_3 : ∀ i : grid1.Coords, EltTy.bits .f32 = 32 ∨ (Rect.block (s := S40x40) S40x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S5000x40_S40x40_S5000x40_1_0_0_1_n_n : DotDims S5000x40 S40x40 S5000x40 where
  lhsContracting := [1]
  rhsContracting := [0]
  lhsNonContracting := [0]
  rhsNonContracting := [1]
  lhsBatch := []
  rhsBatch := []
  wf := dot_S5000x40_S40x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S5000x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S40x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x2 : Shape := ⟨2, ![1600000, 2]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40x40 : Shape := ⟨2, ![40, 40]⟩
abbrev S1600000x1 : Shape := ⟨2, ![1600000, 1]⟩
abbrev S1600000 : Shape := ⟨1, ![1600000]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x2, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S40x40, .f32⟩
  | .hbm, ⟨9, _⟩ => ⟨S40, .f32⟩
  | .hbm, ⟨10, _⟩ => ⟨S1600000x1, .i32⟩
  | .hbm, ⟨11, _⟩ => ⟨S1600000, .i32⟩
  | .hbm, ⟨12, _⟩ => ⟨S1600000x1, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x40, .f32⟩
  | .hbm, ⟨57, _⟩ => ⟨S1x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000x40, .f32⟩
  | .hbm, ⟨62, _⟩ => ⟨S100000x40, .f32⟩
  | .hbm, ⟨63, _⟩ => ⟨S100000x40, .f32⟩
  | .hbm, ⟨64, _⟩ => ⟨S1x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x40, .f32⟩
  | .hbm, ⟨80, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  dot_S100000x40_S40x40_S100000x40_1_0_0_1_n_n_wf : DotDims.WF S100000x40 S40x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def dot_S100000x40_S40x40_S100000x40_1_0_0_1_n_n : DotDims S100000x40 S40x40 S100000x40 where
  lhsContracting := [1]
  rhsContracting := [0]
  lhsNonContracting := [0]
  rhsNonContracting := [1]
  lhsBatch := []
  rhsBatch := []
  wf := dot_S100000x40_S40x40_S100000x40_1_0_0_1_n_n_wf

class Facts : Prop extends Facts₀ where

variable [Facts]
-- ==== Proof.KernelRun.lean ====
/-
  The idealized kernel program's run, with its result named.

  The program is four stretches in a row: host operations, a first grid of row blocks, host operations, a second
  grid. The contents of every buffer at each boundary between stretches are a fold from the launch memory. When the
  last stretch ends, every buffer that is not scoped to a grid holds the last boundary's contents; so any property of
  the final memory that follows from "each such buffer holds the last boundary's contents" holds after every
  execution. Read at the result's buffer this names the array the second grid's write-backs leave; read at an
  argument's buffer the fold walks back to the launch memory, since no stretch writes an argument.
-/
import proofs.«145564_j45346264711281_2_alg».proof.Proof.Gen.KernelIdeal.Frame

set_option maxRecDepth 16384

noncomputable section

namespace Cert.Gin.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last stretch leaves, as a property of a memory: on core `c` every buffer not scoped to a grid holds the
    last boundary's contents. -/
def EndsAt (c : Dev nD) (s : MemSt nD τ sig (Elt F)) : Prop :=
  ∀ b ∈ Pipeline.ucRefs τ sig, s.mem (((c : Thread nD τ)).1, b) = W4 m ρ c b

set_option backward.isDefEq.respectTransparency.types false in
/-- Every weakly fair execution of the program terminates, nothing faulting, in a memory where every core's
    unscoped buffers hold the last boundary's contents; so any `Q` that follows from that holds at the end.

    The four stretches are the segments; each segment starts from the thread state the one before it leaves, so
    the chain's links are all reflexive. At launch a core's unscoped buffers at the launch memory are the first
    thread state, its generator register is at its launch value, and it owes nothing. At the end the last thread
    state's points-to facts, read against the final memory, say what each unscoped buffer holds. -/
theorem run_post {Q : PUnit × MemSt nD τ sig (Elt F) → Prop}
    (hQ : ∀ s : MemSt nD τ sig (Elt F), (∀ c : Dev nD, EndsAt m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    -- the program is the run of its segments
    (fun c Q => by rw [main_run m ρ c])
    -- the two grids are different pipelines
    (by simp only [segs, Pipeline.Seg.pipes_host, Pipeline.Seg.pipes_region, Pipeline.Seg.pipes_nil]; decide)
    -- no core owes another anything, and no level is assigned
    (O₀ := 0) (hL := fun _ _ => rfl) (G := fun _ => iprop(emp))
    (u₀ := initOf (Pipeline.cells cfgs cellOf_inj) (Pipeline.launchToks cfgs cellOf_inj))
    -- the launch element is the pipelines' own; the per-core ghost resource is empty
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    -- first and last thread states
    (T₀ := fun c => iprop(StableHlo.held (c : Thread nD τ) (Pipeline.ucRefs τ sig) (W0 m ρ c) ∗ R c)) (Tₙ := Tₙ m ρ)
    -- each segment is entered from what the previous one leaves
    (hch := ⟨fun _ => .rfl, fun _ => .rfl, fun _ => .rfl, fun _ => .rfl, fun _ => .rfl⟩)
    -- the launch deals each core its unscoped buffers, its generator register and an empty debt
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      · iexists ∅
        iexact Howes)
    (QY := EndsAt m ρ)
    -- the last thread state's points-to facts against the final state
    (hfin := fun c s' => by
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := hQ)

/-- The run with the result named: the result's buffer ends at the last boundary's contents, and every argument
    array ends as launched. -/
theorem run_value : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ fun s h c =>
    ⟨h c _ (mem_uc main_v25 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩

end Cert.Gin.Ker

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«145564_j45346264711281_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.Spec.lean ====
/-
  The graph network both programs compute, row by row, over the extended reals.

  A node's row is first joined with its neighbourhood: the sum, over the edges arriving at the node, of the source
  node's row, plus the node's own row (`aggRow`). A dense layer is a row times a weight matrix plus a bias row
  (`dense`); `cut` is the maximum with zero, entry by entry. The first layer maps the joined row of the input table
  through two dense layers, each followed by a cut (`hidden`), giving the hidden table `X1`.

  The second layer is where the two programs part. One joins the hidden rows and then applies the 128 → 40 dense
  layer (`outRef`). The other first multiplies every hidden row by the 128 → 40 matrix (`Z`), joins those 40-wide
  rows, and adds the bias once (`outKer`). Both then cut, apply the last dense layer, and normalise the row by a
  softmax taken against the row's maximum (`tail`).
-/
import proofs.«145564_j45346264711281_2_alg».proof.Proof.LibDense
import proofs.«145564_j45346264711281_2_alg».proof.Proof.LibRows
import proofs.«145564_j45346264711281_2_alg».proof.Proof.LibScatter

noncomputable section

namespace Cert.Gin

open Idealize.ShloMosaic Idealize.ShloMosaic.ValueIdx

/-- A row times a matrix: entry `q` is the sum over `k` of `v k · W (k, q)`. -/
def vecmat {K N : ℕ} (v : Fin K → EReal) (W : (⟨2, ![K, N]⟩ : Shape).Idx → EReal) : Fin N → EReal :=
  fun q => ∑ k : Fin K, v k * W (ix2 k q)

/-- A dense layer on one row: the row times the weights, plus the bias. -/
def dense {K N : ℕ} (v : Fin K → EReal) (W : (⟨2, ![K, N]⟩ : Shape).Idx → EReal)
    (b : (⟨1, ![N]⟩ : Shape).Idx → EReal) : Fin N → EReal :=
  fun q => vecmat v W q + b (ix1 q)

/-- The maximum with zero, entry by entry. -/
def cut {N : ℕ} (v : Fin N → EReal) : Fin N → EReal := fun q => max (v q) 0

/-- A row's maximum, folded from the bottom element (the pattern of minus infinity). -/
def rowMax {N : ℕ} (y : Fin N → EReal) : EReal :=
  (Finset.univ : Finset (Fin N)).fold max (Ideal.ofBits .f32 0xFF800000#32) y

/-- The softmax of a row, taken against the row's maximum. -/
def softrow {N : ℕ} (y : Fin N → EReal) : Fin N → EReal :=
  fun q => Ideal.div (Ideal.exp (y q - rowMax y)) (∑ k : Fin N, Ideal.exp (y k - rowMax y))

/-- The column of source indices as both programs compute it from the edge array: column 0 of the array, a negative
    index moved up by the number of nodes, laid as a one-column array. -/
def srcCol (hs : (⟨2, ![1600000, 2]⟩ : Shape).Slices ![0, 0] ⟨2, ![1600000, 1]⟩)
    (hc : (⟨2, ![1600000, 1]⟩ : Shape).ShapeCasts ⟨1, ![1600000]⟩)
    (hb : (⟨0, ![]⟩ : Shape).BroadcastsInDim ⟨1, ![1600000]⟩ (![] : Fin 0 → Fin 1))
    (hb' : (⟨1, ![1600000]⟩ : Shape).BroadcastsInDim ⟨2, ![1600000, 1]⟩ (![0] : Fin 1 → Fin 2))
    (e : IVec ⟨2, ![1600000, 2]⟩ 32) : IVec ⟨2, ![1600000, 1]⟩ 32 :=
  broadcastInDim ⟨2, ![1600000, 1]⟩ ![0] hb'
    (select
      (cmpi .slt (shapeCast ⟨1, ![1600000]⟩ (extractStridedSlice ⟨2, ![1600000, 1]⟩ ![0, 0] e hs) hc)
        (broadcastInDim ⟨1, ![1600000]⟩ ![] hb (constantI ⟨0, ![]⟩ 32 0#32)))
      (addi (shapeCast ⟨1, ![1600000]⟩ (extractStridedSlice ⟨2, ![1600000, 1]⟩ ![0, 0] e hs) hc)
        (broadcastInDim ⟨1, ![1600000]⟩ ![] hb (constantI ⟨0, ![]⟩ 32 100000#32)))
      (shapeCast ⟨1, ![1600000]⟩ (extractStridedSlice ⟨2, ![1600000, 1]⟩ ![0, 0] e hs) hc))

/-- The column of destination indices: column 1 of the edge array, laid as a one-column array. -/
def dstCol (hs : (⟨2, ![1600000, 2]⟩ : Shape).Slices ![0, 1] ⟨2, ![1600000, 1]⟩)
    (hc : (⟨2, ![1600000, 1]⟩ : Shape).ShapeCasts ⟨1, ![1600000]⟩)
    (hb' : (⟨1, ![1600000]⟩ : Shape).BroadcastsInDim ⟨2, ![1600000, 1]⟩ (![0] : Fin 1 → Fin 2))
    (e : IVec ⟨2, ![1600000, 2]⟩ 32) : IVec ⟨2, ![1600000, 1]⟩ 32 :=
  broadcastInDim ⟨2, ![1600000, 1]⟩ ![0] hb'
    (shapeCast ⟨1, ![1600000]⟩ (extractStridedSlice ⟨2, ![1600000, 1]⟩ ![0, 1] e hs) hc)

/-- The table row that edge `r`'s source index names (the word read as a signed integer, clamped into the table). -/
def srcRow (si : IVec ⟨2, ![1600000, 1]⟩ 32) (r : Fin 1600000) : Fin 100000 :=
  Cert.RowsLib.rowOf 100000 (by norm_num) (si (ix2 r (0 : Fin 1)))

/-- The edges whose destination index, read as a signed integer, is node `b`. -/
def inEdges (di : IVec ⟨2, ![1600000, 1]⟩ 32) (b : Fin 100000) : Finset (Fin 1600000) :=
  Finset.univ.filter fun r : Fin 1600000 => (di (ix2 r (0 : Fin 1))).toInt = (b.val : ℤ)

/-- Node `b`'s row joined with its neighbourhood: the sum over the arriving edges of the source rows, plus its own. -/
def aggRow {C : ℕ} (si di : IVec ⟨2, ![1600000, 1]⟩ 32) (X : (⟨2, ![100000, C]⟩ : Shape).Idx → EReal)
    (b : Fin 100000) : Fin C → EReal :=
  fun k => (∑ r ∈ inEdges di b, X (ix2 (srcRow si r) k)) + X (ix2 b k)

/-- The first layer on one joined row: dense, cut, dense, cut. -/
def hidden (W1a : (⟨2, ![128, 128]⟩ : Shape).Idx → EReal) (b1a : (⟨1, ![128]⟩ : Shape).Idx → EReal)
    (W1b : (⟨2, ![128, 128]⟩ : Shape).Idx → EReal) (b1b : (⟨1, ![128]⟩ : Shape).Idx → EReal)
    (h : Fin 128 → EReal) : Fin 128 → EReal :=
  cut (dense (cut (dense h W1a b1a)) W1b b1b)

/-- The hidden table: the first layer of every node's joined input row. -/
def X1 (si di : IVec ⟨2, ![1600000, 1]⟩ 32) (x0 : (⟨2, ![100000, 128]⟩ : Shape).Idx → EReal)
    (W1a : (⟨2, ![128, 128]⟩ : Shape).Idx → EReal) (b1a : (⟨1, ![128]⟩ : Shape).Idx → EReal)
    (W1b : (⟨2, ![128, 128]⟩ : Shape).Idx → EReal) (b1b : (⟨1, ![128]⟩ : Shape).Idx → EReal) :
    (⟨2, ![100000, 128]⟩ : Shape).Idx → EReal :=
  fun i => hidden W1a b1a W1b b1b (aggRow si di x0 (i 0)) (i 1)

/-- The hidden table projected to 40 columns, row by row. -/
def Z (X : (⟨2, ![100000, 128]⟩ : Shape).Idx → EReal) (W2a : (⟨2, ![128, 40]⟩ : Shape).Idx → EReal) :
    (⟨2, ![100000, 40]⟩ : Shape).Idx → EReal :=
  fun i => vecmat (fun k => X (ix2 (n0 := 100000) (i 0) k)) W2a (i 1)

/-- What both programs do to the second layer's 40-wide row: cut, dense, softmax. -/
def tail (W2b : (⟨2, ![40, 40]⟩ : Shape).Idx → EReal) (b2b : (⟨1, ![40]⟩ : Shape).Idx → EReal)
    (h : Fin 40 → EReal) : Fin 40 → EReal :=
  softrow (dense (cut h) W2b b2b)

/-- Join, then project: the second layer's row as the dense layer of the joined hidden row. -/
def preRef (si di : IVec ⟨2, ![1600000, 1]⟩ 32) (X : (⟨2, ![100000, 128]⟩ : Shape).Idx → EReal)
    (W2a : (⟨2, ![128, 40]⟩ : Shape).Idx → EReal) (b2a : (⟨1, ![40]⟩ : Shape).Idx → EReal) (b : Fin 100000) :
    Fin 40 → EReal :=
  dense (aggRow si di X b) W2a b2a

/-- Project, then join: the joined row of the projected table, plus the bias. -/
def preKer (si di : IVec ⟨2, ![1600000, 1]⟩ 32) (X : (⟨2, ![100000, 128]⟩ : Shape).Idx → EReal)
    (W2a : (⟨2, ![128, 40]⟩ : Shape).Idx → EReal) (b2a : (⟨1, ![40]⟩ : Shape).Idx → EReal) (b : Fin 100000) :
    Fin 40 → EReal :=
  fun q => aggRow si di (Z X W2a) b q + b2a (ix1 q)

/-- The result table when the join comes before the projection. -/
def outRef (si di : IVec ⟨2, ![1600000, 1]⟩ 32) (X : (⟨2, ![100000, 128]⟩ : Shape).Idx → EReal)
    (W2a : (⟨2, ![128, 40]⟩ : Shape).Idx → EReal) (b2a : (⟨1, ![40]⟩ : Shape).Idx → EReal)
    (W2b : (⟨2, ![40, 40]⟩ : Shape).Idx → EReal) (b2b : (⟨1, ![40]⟩ : Shape).Idx → EReal) :
    (⟨2, ![100000, 40]⟩ : Shape).Idx → EReal :=
  fun i => tail W2b b2b (preRef si di X W2a b2a (i 0)) (i 1)

/-- The result table when the projection comes before the join. -/
def outKer (si di : IVec ⟨2, ![1600000, 1]⟩ 32) (X : (⟨2, ![100000, 128]⟩ : Shape).Idx → EReal)
    (W2a : (⟨2, ![128, 40]⟩ : Shape).Idx → EReal) (b2a : (⟨1, ![40]⟩ : Shape).Idx → EReal)
    (W2b : (⟨2, ![40, 40]⟩ : Shape).Idx → EReal) (b2b : (⟨1, ![40]⟩ : Shape).Idx → EReal) :
    (⟨2, ![100000, 40]⟩ : Shape).Idx → EReal :=
  fun i => tail W2b b2b (preKer si di X W2a b2a (i 0)) (i 1)

end Cert.Gin

end
-- ==== Proof.Region0.lean ====
/-
  What the first grid leaves in its result table.

  The grid cuts the 100000 rows into 20 blocks of 5000. At block `t` the body reads rows `5000 t … 5000 t + 4999`
  of the neighbourhood-sum table and of the input table, and all of each weight array; it adds the two row blocks,
  applies two dense layers each followed by the maximum with zero, multiplies by the 128 × 40 matrix, and stores the
  5000 × 40 block, which is written back to rows `5000 t …` of the result. Every operation works row by row, so row
  `r` of the result depends on row `r` of the two tables only: the result table is ONE function of the whole arrays.
-/
import proofs.«145564_j45346264711281_2_alg».proof.Proof.Spec
import proofs.«145564_j45346264711281_2_alg».proof.Proof.Gen.KernelIdeal.Frame
import Idealize.ShloMosaic.Lib.Pipeline.Value
import Idealize.ShloMosaic.Lib.ValueLayout

set_option maxRecDepth 16384

noncomputable section

namespace Cert.Gin.Ker

open Cert.KernelIdeal Cert.KernelIdeal.Gen
open Idealize.ShloMosaic Idealize.ShloMosaic.ValueIdx Idealize.ShloMosaic.TcCoe Idealize.SL.Sem
open Idealize.ShloMosaic.Pipeline (Dat)
open Cert.DenseLib Cert.LayoutLib

theorem zeros2 : (![0, 0] : Fin 2 → Nat) = fun _ => 0 := funext fun a => by fin_cases a <;> rfl
theorem zeros1 : (![0] : Fin 1 → Nat) = fun _ => 0 := funext fun a => by fin_cases a <;> rfl

/-- A bias vector cast to one row and broadcast down the rows lays the vector along every row. -/
theorem bias_rows {M N : ℕ} (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) :
    broadcastTo ⟨2, ![M, N]⟩ (shapeCast ⟨2, ![1, N]⟩ b h1) h2 = rows (M := M) fun k => b (ix1 k) := by
  rw [broadcastTo_eq_rows]
  refine congrArg (rows (M := M)) (funext fun k => ?_)
  exact shapeCast_a_1a_apply b h1 (0 : Fin 1) k

/-- The first body's stored value, as the chain of dense layers on its row blocks. -/
theorem pay0_eq (x0 x1 : FVec Ideal S5000x128 .f32) (x2 : FVec Ideal S128x128 .f32) (x3 : FVec Ideal S128 .f32)
    (x4 : FVec Ideal S128x128 .f32) (x5 : FVec Ideal S128 .f32) (x6 : FVec Ideal S128x40 .f32) :
    k0_pay1 (F := Ideal) x0 x1 x2 x3 x4 x5 x6
      = mm (relu (plus (mm (relu (plus (mm (plus x0 x1) x2) (rows fun k => x3 (ix1 k)))) x4) (rows fun k => x5 (ix1 k)))) x6 := by
  unfold k0_pay1
  simp only [shapeCast_self, truncf_eq]
  rw [matmul_eq_mm dot_S5000x128_S128x128_S5000x128_1_0_0_1_n_n rfl, bias_rows, maximumf_splat_zero,
    matmul_eq_mm dot_S5000x128_S128x128_S5000x128_1_0_0_1_n_n rfl, bias_rows, maximumf_splat_zero,
    matmul_eq_mm dot_S5000x128_S128x40_S5000x40_1_0_0_1_n_n rfl]
  rfl

/-! ## The result table as one function of the whole arrays -/

/-- Row `i 0` of the result: the joined row (neighbourhood sum plus own row) through the first layer, times the
    128 × 40 matrix. -/
def table0 (a x : FVec Ideal S100000x128 .f32) (W1a : FVec Ideal S128x128 .f32) (b1a : FVec Ideal S128 .f32)
    (W1b : FVec Ideal S128x128 .f32) (b1b : FVec Ideal S128 .f32) (W2a : FVec Ideal S128x40 .f32) :
    FVec Ideal S100000x40 .f32 :=
  fun i => vecmat (hidden W1a b1a W1b b1b
    (fun k => a (ix2 (n0 := 100000) (i 0) k) + x (ix2 (n0 := 100000) (i 0) k))) W2a (i 1)

/-- Row `p` of the body's stored block is row `r` of the table, when row `p` of each row block is row `r` of its
    array: every step of the body works row by row. -/
theorem block_row (x0 x1 : FVec Ideal S5000x128 .f32) (x2 : FVec Ideal S128x128 .f32) (x3 : FVec Ideal S128 .f32)
    (x4 : FVec Ideal S128x128 .f32) (x5 : FVec Ideal S128 .f32) (x6 : FVec Ideal S128x40 .f32)
    (a x : FVec Ideal S100000x128 .f32) (p : Fin 5000) (r : Fin 100000) (q : Fin 40)
    (h0 : ∀ k : Fin 128, x0 (ix2 p k) = a (ix2 r k)) (h1 : ∀ k : Fin 128, x1 (ix2 p k) = x (ix2 r k)) :
    (mm (relu (plus (mm (relu (plus (mm (plus x0 x1) x2) (rows fun k => x3 (ix1 k)))) x4) (rows fun k => x5 (ix1 k)))) x6)
        (ix2 p q)
      = table0 a x x2 x3 x4 x5 x6 (ix2 r q) := by
  have hrow : (fun k : Fin 128 => x0 (ix2 p k) + x1 (ix2 p k)) = fun k : Fin 128 => a (ix2 r k) + x (ix2 r k) :=
    funext fun k => by rw [h0, h1]
  show vecmat (hidden x2 x3 x4 x5 (fun k : Fin 128 => x0 (ix2 p k) + x1 (ix2 p k))) x6 q
    = vecmat (hidden x2 x3 x4 x5 (fun k : Fin 128 => a (ix2 r k) + x (ix2 r k))) x6 q
  rw [hrow]

/-- The printed index maps over the grid: the row-block windows sit at block `t` of their arrays, the weight
    windows at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of block `t` is row `5000 t + p` of the table. -/
def brow0 (t : Fin cfg0.N) (p : Fin 5000) : Fin 100000 :=
  ⟨t.val * 5000 + p.val, by have h : t.val < 20 := lt_of_lt_of_eq t.isLt N_0; have := p.isLt; omega⟩

variable (V : (c : Dev nD) → (b : Ref sig .tc) → Buf (Elt Ideal) ((c : Thread nD τ).loc b))

theorem blk0_0 (c : Dev nD) (t : Fin cfg0.N) (p : Fin 5000) (k : Fin 128) :
    (iblk0 V c 0 t : FVec Ideal S5000x128 .f32) (ix2 p k) = (V c main_v13 : FVec Ideal S100000x128 .f32) (ix2 (brow0 t p) k) := by
  obtain ⟨e0, e1, -⟩ := idx0 t
  unfold iblk0
  rw [View.read_apply]
  show V c main_v13 _ = V c main_v13 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem blk0_1 (c : Dev nD) (t : Fin cfg0.N) (p : Fin 5000) (k : Fin 128) :
    (iblk0 V c 1 t : FVec Ideal S5000x128 .f32) (ix2 p k) = (V c main_arg0 : FVec Ideal S100000x128 .f32) (ix2 (brow0 t p) k) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- A weight window's block is its whole array, at every point. -/
theorem blk0_2 (c : Dev nD) (t : Fin cfg0.N) : (iblk0 V c 2 t : FVec Ideal S128x128 .f32) = V c main_arg2 := by
  obtain ⟨-, -, -, -, e0, e1, -⟩ := idx0 t
  funext y
  unfold iblk0
  rw [View.read_apply]
  show V c main_arg2 _ = V c main_arg2 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk0_3 (c : Dev nD) (t : Fin cfg0.N) : (iblk0 V c 3 t : FVec Ideal S128 .f32) = V c main_arg3 := by
  obtain ⟨-, -, -, -, -, -, e0, -⟩ := idx0 t
  funext y
  unfold iblk0
  rw [View.read_apply]
  show V c main_arg3 _ = V c main_arg3 y
  congr 1
  funext a
  apply Fin.ext
  match a with
  | ⟨0, _⟩ => show win0_3.index t (0 : Fin 1) * 128 + 1 * (y 0).val = (y 0).val; rw [e0]; omega

theorem blk0_4 (c : Dev nD) (t : Fin cfg0.N) : (iblk0 V c 4 t : FVec Ideal S128x128 .f32) = V c main_arg4 := by
  obtain ⟨-, -, -, -, -, -, -, e0, e1, -⟩ := idx0 t
  funext y
  unfold iblk0
  rw [View.read_apply]
  show V c main_arg4 _ = V c main_arg4 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk0_5 (c : Dev nD) (t : Fin cfg0.N) : (iblk0 V c 5 t : FVec Ideal S128 .f32) = V c main_arg5 := by
  obtain ⟨-, -, -, -, -, -, -, -, -, e0, -⟩ := idx0 t
  funext y
  unfold iblk0
  rw [View.read_apply]
  show V c main_arg5 _ = V c main_arg5 y
  congr 1
  funext a
  apply Fin.ext
  match a with
  | ⟨0, _⟩ => show win0_5.index t (0 : Fin 1) * 128 + 1 * (y 0).val = (y 0).val; rw [e0]; omega

theorem blk0_6 (c : Dev nD) (t : Fin cfg0.N) : (iblk0 V c 6 t : FVec Ideal S128x40 .f32) = V c main_arg6 := by
  obtain ⟨-, -, -, -, -, -, -, -, -, -, e0, e1, -⟩ := idx0 t
  funext y
  unfold iblk0
  rw [View.read_apply]
  show V c main_arg6 _ = V c main_arg6 y
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 40 + 1 * (y 1).val = (y 1).val; rw [e1]; omega

/-- Entry `(p, q)` of block `t` of the result sits at `(5000 t + p, q)` of the table. -/
theorem emb0_7 (t : Fin cfg0.N) (p : Fin 5000) (q : Fin 40) :
    ((cfg0.win 7).blk t).view.emb (ix2 p q) = (ix2 (brow0 t p) q : S100000x40.Idx) := by
  obtain ⟨-, -, -, -, -, -, -, -, -, -, -, -, e0, e1⟩ := idx0 t
  funext a
  apply Fin.ext
  match a with
  | ⟨0, _⟩ => show win0_7.index t (0 : Fin 2) * 5000 + 1 * p.val = t.val * 5000 + p.val; rw [e0]; omega
  | ⟨1, _⟩ => show win0_7.index t (1 : Fin 2) * 40 + 1 * q.val = q.val; rw [e1]; omega

/-- The table of the whole arrays as the grid finds them. -/
abbrev tableV (c : Dev nD) : FVec Ideal S100000x40 .f32 :=
  table0 (V c main_v13) (V c main_arg0) (V c main_arg2) (V c main_arg3) (V c main_arg4) (V c main_arg5) (V c main_arg6)

/-- What point `t` writes back is block `t` of the table. -/
theorem flushed0 (c : Dev nD) (t : Fin cfg0.N) :
    (dat0 V c).flushed 7 t = ((cfg0.win 7).blk t).view.read (Elt Ideal) (tableV V c) := by
  show (cfg0.win 7).cut (grid0.coords t) ((dat0 V c).after 7 t) = _
  rw [after0_7]
  unfold out0_7
  rw [View.canon_unit_zero zeros2]
  simp only [View.ld_unit_zero (S := S5000x128) zeros2, View.ld_unit_zero (S := S128x128) zeros2,
    View.ld_unit_zero (S := S128) zeros1, View.ld_unit_zero (S := S128x40) zeros2]
  rw [pay0_eq, blk0_2 V c t, blk0_3 V c t, blk0_4 V c t, blk0_5 V c t, blk0_6 V c t]
  funext j
  obtain ⟨p, q, rfl⟩ : ∃ (p : Fin 5000) (q : Fin 40), j = ix2 p q := ⟨j 0, j 1, eq_ix2 j⟩
  rw [View.read_apply, emb0_7 t p q]
  exact block_row (iblk0 V c 0 t) (iblk0 V c 1 t) (V c main_arg2) (V c main_arg3) (V c main_arg4) (V c main_arg5)
    (V c main_arg6) (V c main_v13) (V c main_arg0) p (brow0 t p) q (blk0_0 V c t p) (blk0_1 V c t p)

/-- An index of the table is in point `t`'s block iff each coordinate is in the block's range on its axis. -/
theorem mem_blk0 (t : Fin cfg0.N) (i : S100000x40.Idx) :
    i ∈ ((cfg0.win 7).blk t).view.set ↔ ∀ a : Fin 2, win0_7.index t a * S5000x40.size a ≤ (i a).val
      ∧ (i a).val < win0_7.index t a * S5000x40.size a + S5000x40.size a := by
  show i ∈ ((View.whole main_v14).slice (win0_7.rect t)).set ↔ _
  rw [View.set_slice_whole, Rect.mem_set_unit]
  exact Iff.rfl

/-- Every row of the table lies in some point's block: row `r` in block `r / 5000`. -/
theorem cover0 (i : S100000x40.Idx) :
    ∃ t : Fin cfg0.N, (cfg0.win 7).flush t = true ∧ i ∈ ((cfg0.win 7).blk t).view.set := by
  have hi0 : (i 0).val < 100000 := (i 0).isLt
  have hi1 : (i 1).val < 40 := (i 1).isLt
  let t : Fin cfg0.N := ⟨(i 0).val / 5000, by rw [show cfg0.N = 20 from N_0]; omega⟩
  obtain ⟨-, -, -, -, -, -, -, -, -, -, -, -, e0, e1⟩ := idx0 t
  have ht : t.val = (i 0).val / 5000 := rfl
  refine ⟨t, flush0_7 t, ?_⟩
  rw [mem_blk0]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 40 ≤ (i 1).val ∧ (i 1).val < win0_7.index t (1 : Fin 2) * 40 + 40
    rw [e1]; omega

/-- THE RESULT TABLE after the first grid: one function of the whole arrays as the grid finds them. -/
theorem final0 (c : Dev nD) : (dat0 V c).arrAt 7 cfg0.N = tableV V c :=
  (dat0 V c).arrAt_eq_of_cover 7 (tableV V c) (fun t _ => flushed0 V c t) cover0

end Cert.Gin.Ker

end
-- ==== Proof.Region1.lean ====
/-
  What the second grid leaves in the result table.

  Again 20 blocks of 5000 rows. At block `t` the body reads rows `5000 t …` of the joined-projection table and of
  the projection table, and all of the bias and weight arrays; it adds the two row blocks and the bias, takes the
  maximum with zero, applies the last dense layer, and normalises each row: the row's maximum is subtracted, the
  exponential taken, and each entry divided by the row's sum. The block is written back to rows `5000 t …`. Every
  step works row by row, so the result table is one function of the whole arrays.
-/
import proofs.«145564_j45346264711281_2_alg».proof.Proof.Region0

set_option maxRecDepth 16384

noncomputable section

namespace Cert.Gin.Ker

open Cert.KernelIdeal Cert.KernelIdeal.Gen
open Idealize.ShloMosaic Idealize.ShloMosaic.ValueIdx Idealize.ShloMosaic.TcCoe Idealize.SL.Sem
open Idealize.ShloMosaic.Pipeline (Dat)
open Cert.DenseLib Cert.LayoutLib

/-- The row normalisation of a block as the body spells it: the lane maximum folded from minus infinity, laid
    back along the rows and subtracted; the exponential; the lane sum from zero, laid back and divided by. -/
def softBlock (hr : S5000x40.Reduces [1] S5000) (hc : S5000.ShapeCasts S5000x1) (hb : S5000x1.Broadcasts S5000x40)
    (Y : FVec Ideal S5000x40 .f32) : FVec Ideal S5000x40 .f32 :=
  divf
    (exp (subf Y (broadcastTo S5000x40 (shapeCast S5000x1
      (multiReduction .maximumf [1] S5000 Y 0xFF800000#32 hr (.inl rfl) rfl) hc) hb)))
    (broadcastTo S5000x40 (shapeCast S5000x1
      (multiReduction .add [1] S5000
        (exp (subf Y (broadcastTo S5000x40 (shapeCast S5000x1
          (multiReduction .maximumf [1] S5000 Y 0xFF800000#32 hr (.inl rfl) rfl) hc) hb)))
        0x00000000#32 hr (.inl rfl) rfl) hc) hb)

/-- Row `p` of the normalised block is the softmax of row `p`. -/
theorem softBlock_apply (hr : S5000x40.Reduces [1] S5000) (hc : S5000.ShapeCasts S5000x1)
    (hb : S5000x1.Broadcasts S5000x40) (Y : FVec Ideal S5000x40 .f32) (p : Fin 5000) (q : Fin 40) :
    softBlock hr hc hb Y (ix2 p q) = softrow (fun k : Fin 40 => Y (ix2 p k)) q := by
  -- the lane maximum at row p is the row's maximum
  have hM : multiReduction (F := Ideal) .maximumf [1] S5000 Y 0xFF800000#32 hr (.inl rfl) rfl (ix1 p)
      = rowMax (fun k : Fin 40 => Y (ix2 p k)) := by
    refine (Ideal.multiReduction_maximumf_single Y 0xFF800000#32 hr (.inl rfl) rfl (ix1 p)).trans ?_
    show (Finset.univ : Finset (Fin 40)).fold max (Ideal.ofBits .f32 0xFF800000#32) (Y ∘ hr.lift (ix1 p)) = _
    unfold rowMax
    refine congrArg (fun f => (Finset.univ : Finset (Fin 40)).fold max (Ideal.ofBits .f32 0xFF800000#32) f)
      (funext fun k => ?_)
    exact congrArg Y (lift_row hr p k)
  -- the shifted exponential at (p, k)
  have hE : ∀ k : Fin 40, (exp (subf Y (broadcastTo S5000x40 (shapeCast S5000x1
        (multiReduction (F := Ideal) .maximumf [1] S5000 Y 0xFF800000#32 hr (.inl rfl) rfl) hc) hb))) (ix2 p k)
      = Ideal.exp (Y (ix2 p k) - rowMax (fun k : Fin 40 => Y (ix2 p k))) := by
    intro k
    show Ideal.exp (Y (ix2 p k) - (broadcastTo S5000x40 (shapeCast S5000x1
        (multiReduction (F := Ideal) .maximumf [1] S5000 Y 0xFF800000#32 hr (.inl rfl) rfl) hc) hb) (ix2 p k)) = _
    rw [broadcastTo_col_apply, shapeCast_col_apply, hM]
  -- the lane sum at row p is the row's sum
  have hS : multiReduction (F := Ideal) .add [1] S5000
        (exp (subf Y (broadcastTo S5000x40 (shapeCast S5000x1
          (multiReduction (F := Ideal) .maximumf [1] S5000 Y 0xFF800000#32 hr (.inl rfl) rfl) hc) hb)))
        0x00000000#32 hr (.inl rfl) rfl (ix1 p)
      = ∑ k : Fin 40, Ideal.exp (Y (ix2 p k) - rowMax (fun k : Fin 40 => Y (ix2 p k))) := by
    refine (Ideal.multiReduction_add_single _ 0x00000000#32 hr (.inl rfl) rfl (ix1 p)).trans ?_
    refine Finset.sum_congr rfl fun k _ => ?_
    rw [lift_row hr p k]
    exact hE k
  unfold softBlock
  show Ideal.div ((exp (subf Y _)) (ix2 p q)) ((broadcastTo S5000x40 (shapeCast S5000x1 _ hc) hb) (ix2 p q)) = _
  rw [hE q, broadcastTo_col_apply, shapeCast_col_apply, hS]
  rfl

/-- The second body's stored value: the normalisation of the last dense layer of the cut biased sum. -/
theorem pay1_eq (x0 x1 : FVec Ideal S5000x40 .f32) (x2 : FVec Ideal S40 .f32) (x3 : FVec Ideal S40x40 .f32)
    (x4 : FVec Ideal S40 .f32) :
    k1_pay1 (F := Ideal) x0 x1 x2 x3 x4
      = softBlock reduces_S5000x40_S5000 shapeCasts_S5000_S5000x1 broadcasts_S5000x1_S5000x40
          (plus (mm (relu (plus (plus x0 x1) (rows fun k => x2 (ix1 k)))) x3) (rows fun k => x4 (ix1 k))) := by
  unfold k1_pay1 softBlock
  simp only [shapeCast_self, truncf_eq]
  rw [bias_rows, maximumf_splat_zero, matmul_eq_mm dot_S5000x40_S40x40_S5000x40_1_0_0_1_n_n rfl, bias_rows]
  rfl

/-! ## The result table as one function of the whole arrays -/

/-- Row `i 0` of the result: the two tables' rows and the bias added, then cut, dense, softmax. -/
def table1 (s z : FVec Ideal S100000x40 .f32) (b2a : FVec Ideal S40 .f32) (W2b : FVec Ideal S40x40 .f32)
    (b2b : FVec Ideal S40 .f32) : FVec Ideal S100000x40 .f32 :=
  fun i => tail W2b b2b
    (fun q => (s (ix2 (n0 := 100000) (i 0) q) + z (ix2 (n0 := 100000) (i 0) q)) + b2a (ix1 q)) (i 1)

/-- Row `p` of the body's stored block is row `r` of the table, when row `p` of each row block is row `r` of its
    array. -/
theorem block_row1 (x0 x1 : FVec Ideal S5000x40 .f32) (x2 : FVec Ideal S40 .f32) (x3 : FVec Ideal S40x40 .f32)
    (x4 : FVec Ideal S40 .f32) (s z : FVec Ideal S100000x40 .f32) (p : Fin 5000) (r : Fin 100000) (q : Fin 40)
    (h0 : ∀ k : Fin 40, x0 (ix2 p k) = s (ix2 r k)) (h1 : ∀ k : Fin 40, x1 (ix2 p k) = z (ix2 r k)) :
    (softBlock reduces_S5000x40_S5000 shapeCasts_S5000_S5000x1 broadcasts_S5000x1_S5000x40
        (plus (mm (relu (plus (plus x0 x1) (rows fun k => x2 (ix1 k)))) x3) (rows fun k => x4 (ix1 k)))) (ix2 p q)
      = table1 s z x2 x3 x4 (ix2 r q) := by
  have hrow : (fun k : Fin 40 => (x0 (ix2 p k) + x1 (ix2 p k)) + x2 (ix1 k))
      = fun k : Fin 40 => (s (ix2 r k) + z (ix2 r k)) + x2 (ix1 k) :=
    funext fun k => by rw [h0, h1]
  rw [softBlock_apply]
  show softrow (dense (cut (fun k : Fin 40 => (x0 (ix2 p k) + x1 (ix2 p k)) + x2 (ix1 k))) x3 x4) q
    = softrow (dense (cut (fun k : Fin 40 => (s (ix2 r k) + z (ix2 r k)) + x2 (ix1 k))) x3 x4) q
  rw [hrow]

/-- The printed index maps over the grid. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of block `t` is row `5000 t + p` of the table. -/
def brow1 (t : Fin cfg1.N) (p : Fin 5000) : Fin 100000 :=
  ⟨t.val * 5000 + p.val, by have h : t.val < 20 := lt_of_lt_of_eq t.isLt N_1; have := p.isLt; omega⟩

variable (V : (c : Dev nD) → (b : Ref sig .tc) → Buf (Elt Ideal) ((c : Thread nD τ).loc b))

theorem blk1_0 (c : Dev nD) (t : Fin cfg1.N) (p : Fin 5000) (k : Fin 40) :
    (iblk1 V c 0 t : FVec Ideal S5000x40 .f32) (ix2 p k) = (V c main_v24 : FVec Ideal S100000x40 .f32) (ix2 (brow1 t p) k) := by
  obtain ⟨e0, e1, -⟩ := idx1 t
  unfold iblk1
  rw [View.read_apply]
  show V c main_v24 _ = V c main_v24 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 40 + 1 * k.val = k.val; rw [e1]; omega

theorem blk1_1 (c : Dev nD) (t : Fin cfg1.N) (p : Fin 5000) (k : Fin 40) :
    (iblk1 V c 1 t : FVec Ideal S5000x40 .f32) (ix2 p k) = (V c main_v14 : FVec Ideal S100000x40 .f32) (ix2 (brow1 t p) k) := by
  obtain ⟨-, -, e0, e1, -⟩ := idx1 t
  unfold iblk1
  rw [View.read_apply]
  show V c main_v14 _ = V c main_v14 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 40 + 1 * k.val = k.val; rw [e1]; omega

theorem blk1_2 (c : Dev nD) (t : Fin cfg1.N) : (iblk1 V c 2 t : FVec Ideal S40 .f32) = V c main_arg7 := by
  obtain ⟨-, -, -, -, e0, -⟩ := idx1 t
  funext y
  unfold iblk1
  rw [View.read_apply]
  show V c main_arg7 _ = V c main_arg7 y
  congr 1
  funext a
  apply Fin.ext
  match a with
  | ⟨0, _⟩ => show win1_2.index t (0 : Fin 1) * 40 + 1 * (y 0).val = (y 0).val; rw [e0]; omega

theorem blk1_3 (c : Dev nD) (t : Fin cfg1.N) : (iblk1 V c 3 t : FVec Ideal S40x40 .f32) = V c main_arg8 := by
  obtain ⟨-, -, -, -, -, e0, e1, -⟩ := idx1 t
  funext y
  unfold iblk1
  rw [View.read_apply]
  show V c main_arg8 _ = V c main_arg8 y
  congr 1
  funext a
  apply Fin.ext
  match a with
  | ⟨0, _⟩ => show win1_3.index t (0 : Fin 2) * 40 + 1 * (y 0).val = (y 0).val; rw [e0]; omega
  | ⟨1, _⟩ => show win1_3.index t (1 : Fin 2) * 40 + 1 * (y 1).val = (y 1).val; rw [e1]; omega

theorem blk1_4 (c : Dev nD) (t : Fin cfg1.N) : (iblk1 V c 4 t : FVec Ideal S40 .f32) = V c main_arg9 := by
  obtain ⟨-, -, -, -, -, -, -, e0, -⟩ := idx1 t
  funext y
  unfold iblk1
  rw [View.read_apply]
  show V c main_arg9 _ = V c main_arg9 y
  congr 1
  funext a
  apply Fin.ext
  match a with
  | ⟨0, _⟩ => show win1_4.index t (0 : Fin 1) * 40 + 1 * (y 0).val = (y 0).val; rw [e0]; omega

/-- Entry `(p, q)` of block `t` of the result sits at `(5000 t + p, q)` of the table. -/
theorem emb1_5 (t : Fin cfg1.N) (p : Fin 5000) (q : Fin 40) :
    ((cfg1.win 5).blk t).view.emb (ix2 p q) = (ix2 (brow1 t p) q : S100000x40.Idx) := by
  obtain ⟨-, -, -, -, -, -, -, -, e0, e1⟩ := idx1 t
  funext a
  apply Fin.ext
  match a with
  | ⟨0, _⟩ => show win1_5.index t (0 : Fin 2) * 5000 + 1 * p.val = t.val * 5000 + p.val; rw [e0]; omega
  | ⟨1, _⟩ => show win1_5.index t (1 : Fin 2) * 40 + 1 * q.val = q.val; rw [e1]; omega

/-- The table of the whole arrays as the grid finds them. -/
abbrev table1V (c : Dev nD) : FVec Ideal S100000x40 .f32 :=
  table1 (V c main_v24) (V c main_v14) (V c main_arg7) (V c main_arg8) (V c main_arg9)

/-- What point `t` writes back is block `t` of the table. -/
theorem flushed1 (c : Dev nD) (t : Fin cfg1.N) :
    (dat1 V c).flushed 5 t = ((cfg1.win 5).blk t).view.read (Elt Ideal) (table1V V c) := by
  show (cfg1.win 5).cut (grid1.coords t) ((dat1 V c).after 5 t) = _
  rw [after1_5]
  unfold out1_5
  rw [View.canon_unit_zero zeros2]
  simp only [View.ld_unit_zero (S := S5000x40) zeros2, View.ld_unit_zero (S := S40x40) zeros2,
    View.ld_unit_zero (S := S40) zeros1]
  rw [pay1_eq, blk1_2 V c t, blk1_3 V c t, blk1_4 V c t]
  funext j
  obtain ⟨p, q, rfl⟩ : ∃ (p : Fin 5000) (q : Fin 40), j = ix2 p q := ⟨j 0, j 1, eq_ix2 j⟩
  rw [View.read_apply, emb1_5 t p q]
  exact block_row1 (iblk1 V c 0 t) (iblk1 V c 1 t) (V c main_arg7) (V c main_arg8) (V c main_arg9)
    (V c main_v24) (V c main_v14) p (brow1 t p) q (blk1_0 V c t p) (blk1_1 V c t p)

/-- An index of the table is in point `t`'s block iff each coordinate is in the block's range on its axis. -/
theorem mem_blk1 (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v25).slice (win1_5.rect t)).set ↔ _
  rw [View.set_slice_whole, Rect.mem_set_unit]
  exact Iff.rfl

/-- Every row of the table lies in some point's block: row `r` in block `r / 5000`. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  let t : Fin cfg1.N := ⟨(i 0).val / 5000, by rw [show cfg1.N = 20 from N_1]; omega⟩
  obtain ⟨-, -, -, -, -, -, -, -, e0, e1⟩ := idx1 t
  have ht : t.val = (i 0).val / 5000 := rfl
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 40 ≤ (i 1).val ∧ (i 1).val < win1_5.index t (1 : Fin 2) * 40 + 40
    rw [e1]; omega

/-- THE RESULT TABLE after the second grid: one function of the whole arrays as the grid finds them. -/
theorem final1 (c : Dev nD) : (dat1 V c).arrAt 5 cfg1.N = table1V V c :=
  (dat1 V c).arrAt_eq_of_cover 5 (table1V V c) (fun t _ => flushed1 V c t) cover1

end Cert.Gin.Ker

end
-- ==== Proof.JoinSum.lean ====
/-
  A table joined over the edges: rows gathered at the edges' sources and added into a zero table at the edges'
  destinations. Entry `(b, k)` of the result is the sum, over the edges arriving at node `b`, of entry `k` of the
  source node's row; an edge whose destination index names no node contributes nothing, and a source index outside
  the table is clamped into it.
-/
import proofs.«145564_j45346264711281_2_alg».proof.Proof.Spec

noncomputable section

namespace Cert.Gin

open Idealize.ShloMosaic Idealize.ShloMosaic.ValueIdx
open Cert.LayoutLib Cert.RowsLib Cert.ScatterLib

/-- Rows gathered at the sources and added into a zero table at the destinations: entry `(b, k)` is the sum, over
    the edges arriving at `b`, of the source row's entry `k`. -/
theorem joinsum_apply {C : ℕ}
    (wfS : ScatterDims.WF ⟨2, ![100000, C]⟩ ⟨2, ![1600000, 1]⟩ ⟨2, ![1600000, C]⟩ [1] [0] [0] 1)
    (wfG : GatherDims.WF ⟨2, ![100000, C]⟩ ⟨2, ![1600000, 1]⟩ ⟨2, ![1600000, C]⟩ [1] [0] [] [0] [] 1 ![1, C])
    (hb0 : (⟨0, ![]⟩ : Shape).BroadcastsInDim ⟨2, ![100000, C]⟩ (![] : Fin 0 → Fin 2))
    (X : (⟨2, ![100000, C]⟩ : Shape).Idx → EReal) (si di : IVec ⟨2, ![1600000, 1]⟩ 32) (b : Fin 100000) (k : Fin C) :
    Ideal.hostScatterAdd (rowScatterDims 100000 C 1600000 wfS)
        (broadcastInDim ⟨2, ![100000, C]⟩ ![] hb0 (constant (F := Ideal) ⟨0, ![]⟩ .f32 0x00000000#32)) di
        (Host.gather (rowGatherDims 100000 C 1600000 wfG) X si) (ix2 b k)
      = ∑ r ∈ inEdges di b, X (ix2 (srcRow si r) k) := by
  rw [scatterAdd_rows_apply, broadcastInDim_scalar_apply]
  show Ideal.ofBits .f32 0x00000000#32 + _ = _
  rw [Ideal.ofBits_zero_f32, zero_add]
  refine Finset.sum_congr rfl fun r _ => ?_
  exact gather_rows_apply (by norm_num) wfG X si r k

end Cert.Gin

end
-- ==== Proof.Boundaries.lean ====
/-
  What each grid finds, and so what the program returns.

  Before the first grid the host builds, from the edge array, the column of source indices and the column of
  destination indices, gathers the input table's rows at the sources and adds them into a zero table at the
  destinations: at `(b, k)` that table holds the sum over the edges arriving at node `b` of the source row's entry
  `k`. The first grid turns it, with the input table and the first layer's weights, into the projected hidden table.
  Between the grids the host joins the projected table in the same way, over the same two columns. The second grid
  adds the joined table, the projected table and the bias, and finishes the row. So the result is the
  "project, then join" form of the network over the launch arrays.
-/
import proofs.«145564_j45346264711281_2_alg».proof.Proof.Region1
import proofs.«145564_j45346264711281_2_alg».proof.Proof.JoinSum
import Idealize.ShloMosaic.Lib.StableHlo.Run

set_option maxRecDepth 16384

noncomputable section

namespace Cert.Gin.Ker

open Cert.KernelIdeal Cert.KernelIdeal.Gen
open Idealize.ShloMosaic Idealize.ShloMosaic.ValueIdx Idealize.ShloMosaic.TcCoe Idealize.SL.Sem
open Idealize.ShloMosaic.StableHlo
open Cert.DenseLib Cert.LayoutLib Cert.RowsLib Cert.ScatterLib

/-- A first-grid table built from the neighbourhood sums of `x0` is the hidden table projected to 40 columns. -/
theorem table0_eq (A x0 : FVec Ideal S100000x128 .f32) (W1a : FVec Ideal S128x128 .f32) (b1a : FVec Ideal S128 .f32)
    (W1b : FVec Ideal S128x128 .f32) (b1b : FVec Ideal S128 .f32) (W2a : FVec Ideal S128x40 .f32)
    (si di : IVec ⟨2, ![1600000, 1]⟩ 32)
    (hA : ∀ (b : Fin 100000) (k : Fin 128), A (ix2 b k) = ∑ r ∈ inEdges di b, x0 (ix2 (srcRow si r) k)) :
    table0 A x0 W1a b1a W1b b1b W2a = Cert.Gin.Z (Cert.Gin.X1 si di x0 W1a b1a W1b b1b) W2a := by
  funext i
  obtain ⟨b, q, rfl⟩ : ∃ (b : Fin 100000) (q : Fin 40), i = ix2 b q := ⟨i 0, i 1, eq_ix2 i⟩
  have hrow : (fun k : Fin 128 => A (ix2 b k) + x0 (ix2 b k)) = aggRow si di x0 b :=
    funext fun k => by rw [hA]; rfl
  show vecmat (hidden W1a b1a W1b b1b (fun k : Fin 128 => A (ix2 b k) + x0 (ix2 b k))) W2a q = _
  rw [hrow]
  rfl

/-- A second-grid table built from the neighbourhood sums of the projected table is the "project, then join" form. -/
theorem table1_eq (S T : FVec Ideal S100000x40 .f32) (b2a : FVec Ideal S40 .f32) (W2b : FVec Ideal S40x40 .f32)
    (b2b : FVec Ideal S40 .f32) (si di : IVec ⟨2, ![1600000, 1]⟩ 32)
    (X : (⟨2, ![100000, 128]⟩ : Shape).Idx → EReal) (W2a : FVec Ideal S128x40 .f32)
    (hT : T = Cert.Gin.Z X W2a)
    (hS : ∀ (b : Fin 100000) (k : Fin 40), S (ix2 b k) = ∑ r ∈ inEdges di b, T (ix2 (srcRow si r) k)) :
    table1 S T b2a W2b b2b = Cert.Gin.outKer si di X W2a b2a W2b b2b := by
  subst hT
  funext i
  obtain ⟨b, q, rfl⟩ : ∃ (b : Fin 100000) (q : Fin 40), i = ix2 b q := ⟨i 0, i 1, eq_ix2 i⟩
  have hrow : (fun k : Fin 40 => (S (ix2 b k) + Cert.Gin.Z X W2a (ix2 b k)) + b2a (ix1 k))
      = preKer si di X W2a b2a b :=
    funext fun k => by rw [hS]; rfl
  show tail W2b b2b (fun k : Fin 40 => (S (ix2 b k) + Cert.Gin.Z X W2a (ix2 b k)) + b2a (ix1 k)) q = _
  rw [hrow]
  rfl

variable (m : (ℓ : Loc nD τ sig) → Buf (Elt Ideal) ℓ) (ρ : Dev nD → PrngReg)

/-- The column of source indices, from the edge array as launched. -/
abbrev si (c : Dev nD) : IVec ⟨2, ![1600000, 1]⟩ 32 :=
  Cert.Gin.srcCol slices_S1600000x2_S1600000x1_0_0 shapeCasts_S1600000x1_S1600000 bcast_S_S1600000
    bcast_S1600000_S1600000x1_0 (m ((c.tc : Thread nD τ).loc main_arg1))

/-- The column of destination indices, from the edge array as launched. -/
abbrev di (c : Dev nD) : IVec ⟨2, ![1600000, 1]⟩ 32 :=
  Cert.Gin.dstCol slices_S1600000x2_S1600000x1_0_1 shapeCasts_S1600000x1_S1600000
    bcast_S1600000_S1600000x1_0 (m ((c.tc : Thread nD τ).loc main_arg1))

/-! ## What the first grid finds -/

theorem V1_v13 (c : Dev nD) : (V1 m ρ c main_v13 : FVec Ideal S100000x128 .f32)
    = Ideal.hostScatterAdd (rowScatterDims 100000 128 1600000 scatter_S100000x128_S1600000x1_S1600000x128_1_0_0_1_wf)
        (broadcastInDim S100000x128 ![] bcast_S_S100000x128 (constant (F := Ideal) S_ .f32 0x00000000#32)) (di m c)
        (Host.gather (rowGatherDims 100000 128 1600000 gather_S100000x128_S1600000x1_S1600000x128_1_0_n_n_0_1_1128_wf)
          (m ((c.tc : Thread nD τ).loc main_arg0)) (si m c)) := by
  show StableHlo.after hostOps0 (W0 m ρ c) (Proc.devRef .tc main_v13) = _
  after_results
  rfl

theorem V1_arg0 (c : Dev nD) : V1 m ρ c main_arg0 = m ((c.tc : Thread nD τ).loc main_arg0) := by
  show StableHlo.after hostOps0 (W0 m ρ c) (Proc.devRef .tc main_arg0) = _
  after_results
theorem V1_arg2 (c : Dev nD) : V1 m ρ c main_arg2 = m ((c.tc : Thread nD τ).loc main_arg2) := by
  show StableHlo.after hostOps0 (W0 m ρ c) (Proc.devRef .tc main_arg2) = _
  after_results
theorem V1_arg3 (c : Dev nD) : V1 m ρ c main_arg3 = m ((c.tc : Thread nD τ).loc main_arg3) := by
  show StableHlo.after hostOps0 (W0 m ρ c) (Proc.devRef .tc main_arg3) = _
  after_results
theorem V1_arg4 (c : Dev nD) : V1 m ρ c main_arg4 = m ((c.tc : Thread nD τ).loc main_arg4) := by
  show StableHlo.after hostOps0 (W0 m ρ c) (Proc.devRef .tc main_arg4) = _
  after_results
theorem V1_arg5 (c : Dev nD) : V1 m ρ c main_arg5 = m ((c.tc : Thread nD τ).loc main_arg5) := by
  show StableHlo.after hostOps0 (W0 m ρ c) (Proc.devRef .tc main_arg5) = _
  after_results
theorem V1_arg6 (c : Dev nD) : V1 m ρ c main_arg6 = m ((c.tc : Thread nD τ).loc main_arg6) := by
  show StableHlo.after hostOps0 (W0 m ρ c) (Proc.devRef .tc main_arg6) = _
  after_results

/-- The hidden table over the launch arrays. -/
abbrev X1m (c : Dev nD) : (⟨2, ![100000, 128]⟩ : Shape).Idx → EReal :=
  Cert.Gin.X1 (si m c) (di m c) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))

/-- The first grid's result table is the hidden table projected to 40 columns. -/
theorem tableV_eq (c : Dev nD) :
    tableV (V1 m ρ) c = Cert.Gin.Z (X1m m c) (m ((c.tc : Thread nD τ).loc main_arg6)) := by
  show table0 (V1 m ρ c main_v13) (V1 m ρ c main_arg0) (V1 m ρ c main_arg2) (V1 m ρ c main_arg3) (V1 m ρ c main_arg4)
    (V1 m ρ c main_arg5) (V1 m ρ c main_arg6) = _
  rw [V1_arg0, V1_arg2, V1_arg3, V1_arg4, V1_arg5, V1_arg6]
  exact table0_eq _ _ _ _ _ _ _ (si m c) (di m c) fun b k => by
    rw [V1_v13]
    exact joinsum_apply _ _ _ _ _ _ b k

/-! ## What the second grid finds -/

theorem W2_v1 (c : Dev nD) : W2 m ρ c (Proc.devRef .tc main_v1)
    = shapeCast S1600000 (extractStridedSlice S1600000x1 ![0, 0] (m ((c.tc : Thread nD τ).loc main_arg1))
        slices_S1600000x2_S1600000x1_0_0) shapeCasts_S1600000x1_S1600000 :=
  (W2_of_ne m ρ c main_v1 (by decide)).trans (by
    show StableHlo.after hostOps0 (W0 m ρ c) (Proc.devRef .tc main_v1) = _
    after_results
    rfl)

theorem W2_v3 (c : Dev nD) : W2 m ρ c (Proc.devRef .tc main_v3)
    = shapeCast S1600000 (extractStridedSlice S1600000x1 ![0, 1] (m ((c.tc : Thread nD τ).loc main_arg1))
        slices_S1600000x2_S1600000x1_0_1) shapeCasts_S1600000x1_S1600000 :=
  (W2_of_ne m ρ c main_v3 (by decide)).trans (by
    show StableHlo.after hostOps0 (W0 m ρ c) (Proc.devRef .tc main_v3) = _
    after_results
    rfl)

theorem W2_v14 (c : Dev nD) : W2 m ρ c (Proc.devRef .tc main_v14) = tableV (V1 m ρ) c :=
  (W2_arr m ρ c 7).trans (final0 (V1 m ρ) c)

theorem W2_arg (b : Ref sig .tc) (hb : ∀ w, Pipeline.arrRef spec0 w ≠ b) (c : Dev nD)
    (h0 : StableHlo.after hostOps0 (W0 m ρ c) (Proc.devRef .tc b) = m ((c.tc : Thread nD τ).loc b)) :
    W2 m ρ c (Proc.devRef .tc b) = m ((c.tc : Thread nD τ).loc b) :=
  (W2_of_ne m ρ c b hb).trans h0

theorem V3_v24 (c : Dev nD) : (V3 m ρ c main_v24 : FVec Ideal S100000x40 .f32)
    = Ideal.hostScatterAdd (rowScatterDims 100000 40 1600000 scatter_S100000x40_S1600000x1_S1600000x40_1_0_0_1_wf)
        (broadcastInDim S100000x40 ![] bcast_S_S100000x40 (constant (F := Ideal) S_ .f32 0x00000000#32)) (di m c)
        (Host.gather (rowGatherDims 100000 40 1600000 gather_S100000x40_S1600000x1_S1600000x40_1_0_n_n_0_1_140_wf)
          (tableV (V1 m ρ) c) (si m c)) := by
  show StableHlo.after hostOps1 (W2 m ρ c) (Proc.devRef .tc main_v24) = _
  after_results
  rw [W2_v1, W2_v3, W2_v14]
  rfl

theorem V3_v14 (c : Dev nD) : (V3 m ρ c main_v14 : FVec Ideal S100000x40 .f32) = tableV (V1 m ρ) c := by
  show StableHlo.after hostOps1 (W2 m ρ c) (Proc.devRef .tc main_v14) = _
  after_results
  exact W2_v14 m ρ c

theorem V3_arg7 (c : Dev nD) : V3 m ρ c main_arg7 = m ((c.tc : Thread nD τ).loc main_arg7) := by
  show StableHlo.after hostOps1 (W2 m ρ c) (Proc.devRef .tc main_arg7) = _
  after_results
  exact W2_arg m ρ main_arg7 (by decide) c (by after_results)
theorem V3_arg8 (c : Dev nD) : V3 m ρ c main_arg8 = m ((c.tc : Thread nD τ).loc main_arg8) := by
  show StableHlo.after hostOps1 (W2 m ρ c) (Proc.devRef .tc main_arg8) = _
  after_results
  exact W2_arg m ρ main_arg8 (by decide) c (by after_results)
theorem V3_arg9 (c : Dev nD) : V3 m ρ c main_arg9 = m ((c.tc : Thread nD τ).loc main_arg9) := by
  show StableHlo.after hostOps1 (W2 m ρ c) (Proc.devRef .tc main_arg9) = _
  after_results
  exact W2_arg m ρ main_arg9 (by decide) c (by after_results)

/-- The second grid's result table is the "project, then join" form over the launch arrays. -/
theorem table1V_eq (c : Dev nD) :
    table1V (V3 m ρ) c = Cert.Gin.outKer (si m c) (di m c) (X1m m c) (m ((c.tc : Thread nD τ).loc main_arg6))
      (m ((c.tc : Thread nD τ).loc main_arg7)) (m ((c.tc : Thread nD τ).loc main_arg8))
      (m ((c.tc : Thread nD τ).loc main_arg9)) := by
  show table1 (V3 m ρ c main_v24) (V3 m ρ c main_v14) (V3 m ρ c main_arg7) (V3 m ρ c main_arg8) (V3 m ρ c main_arg9) = _
  rw [V3_arg7, V3_arg8, V3_arg9]
  refine table1_eq _ _ _ _ _ (si m c) (di m c) (X1m m c) _ ((V3_v14 m ρ c).trans (tableV_eq m ρ c)) fun b k => ?_
  rw [V3_v24, V3_v14]
  exact joinsum_apply _ _ _ _ _ _ b k

/-- THE RESULT: the program's result buffer ends at the "project, then join" form of the network. -/
theorem result_eq (c : Dev nD) :
    W4 m ρ c (Proc.devRef .tc main_v25) = Cert.Gin.outKer (si m c) (di m c) (X1m m c)
      (m ((c.tc : Thread nD τ).loc main_arg6)) (m ((c.tc : Thread nD τ).loc main_arg7))
      (m ((c.tc : Thread nD τ).loc main_arg8)) (m ((c.tc : Thread nD τ).loc main_arg9)) :=
  (W4_arr m ρ c 5).trans ((final1 (V3 m ρ) c).trans (table1V_eq m ρ c))

end Cert.Gin.Ker

end
-- ==== Proof.RefValue.lean ====
/-
  The reference program's result, read stage by stage, is the graph network of the shared specification: its
  two index columns are the specification's source and destination columns, each scatter of gathered rows plus the
  table is the neighbourhood join, each dot-plus-bias is a dense layer, each maximum against zero a cut, and the
  last stages are the softmax of a row against its maximum.
-/
import proofs.«145564_j45346264711281_2_alg».proof.Proof.Spec
import proofs.«145564_j45346264711281_2_alg».proof.Proof.Gen.ReferenceIdeal.Read

noncomputable section

namespace Cert.Gin.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.LayoutLib Cert.DenseLib Cert.RowsLib Cert.ScatterLib

/-! ## The two index columns -/

/-- The source column of an edge array. -/
abbrev srcOf (e : IVec S1600000x2 32) : IVec S1600000x1 32 :=
  Cert.Gin.srcCol slices_S1600000x2_S1600000x1_0_0 shapeCasts_S1600000x1_S1600000 bcast_S_S1600000 bcast_S1600000_S1600000x1_0 e

/-- The destination column of an edge array. -/
abbrev dstOf (e : IVec S1600000x2 32) : IVec S1600000x1 32 :=
  Cert.Gin.dstCol slices_S1600000x2_S1600000x1_0_1 shapeCasts_S1600000x1_S1600000 bcast_S1600000_S1600000x1_0 e

/-- The source column the program computes from its edge argument. -/
abbrev si (m : (ℓ : Loc nD τ sig) → Buf (Elt Ideal) ℓ) (c : Dev nD) : IVec S1600000x1 32 :=
  Cert.Gin.srcCol slices_S1600000x2_S1600000x1_0_0 shapeCasts_S1600000x1_S1600000 bcast_S_S1600000 bcast_S1600000_S1600000x1_0 (m ((c.tc : Thread nD τ).loc main_arg1))

/-- The destination column the program computes from its edge argument. -/
abbrev di (m : (ℓ : Loc nD τ sig) → Buf (Elt Ideal) ℓ) (c : Dev nD) : IVec S1600000x1 32 :=
  Cert.Gin.dstCol slices_S1600000x2_S1600000x1_0_1 shapeCasts_S1600000x1_S1600000 bcast_S1600000_S1600000x1_0 (m ((c.tc : Thread nD τ).loc main_arg1))

theorem v9_eq (x1 : IVec S1600000x2 32) : val_main_v9 (F := Ideal) x1 = srcOf x1 := rfl
theorem v30_eq (x1 : IVec S1600000x2 32) : val_main_v30 (F := Ideal) x1 = srcOf x1 := rfl
theorem v12_eq (x1 : IVec S1600000x2 32) : val_main_v12 (F := Ideal) x1 = dstOf x1 := rfl
theorem v33_eq (x1 : IVec S1600000x2 32) : val_main_v33 (F := Ideal) x1 = dstOf x1 := rfl

/-! ## The neighbourhood join -/

/-- The scatter, into a zero table, of the gathered rows at the destination indices, plus the table itself, read at
    `(b, k)`: the sum over the edges arriving at `b` of the source rows' entry `k`, plus the table's own entry. -/
theorem join_apply {N C R w : ℕ} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (hz : (⟨0, ![]⟩ : Shape).BroadcastsInDim ⟨2, ![N, C]⟩ (![] : Fin 0 → Fin 2))
    (X : FVec Ideal ⟨2, ![N, C]⟩ .f32) (s d : IVec ⟨2, ![R, 1]⟩ w) (b : Fin N) (k : Fin C) :
    addf (Host.scatterAdd (rowScatterDims N C R wfS)
        (broadcastInDim ⟨2, ![N, C]⟩ ![] hz (constant (F := Ideal) ⟨0, ![]⟩ .f32 0x00000000#32)) d
        (Host.gather (rowGatherDims N C R wfG) X s)) X (ix2 b k)
      = (∑ r ∈ Finset.univ.filter (fun r : Fin R => (d (ix2 r (0 : Fin 1))).toInt = (b.val : ℤ)),
          X (ix2 (rowOf N hN (s (ix2 r (0 : Fin 1)))) k)) + X (ix2 b k) := by
  show Ideal.hostScatterAdd (rowScatterDims N C R wfS) _ d (Host.gather (rowGatherDims N C R wfG) X s) (ix2 b k)
      + X (ix2 b k) = _
  rw [scatterAdd_rows_apply, broadcastInDim_scalar_apply]
  show Ideal.ofBits .f32 0x00000000#32 + _ + _ = _
  rw [Ideal.ofBits_zero_f32, zero_add]
  refine congrArg (· + X (ix2 b k)) ?_
  exact Finset.sum_congr rfl fun r _ => gather_rows_apply hN wfG X s r k

/-- The program's scatter of gathered rows plus the table is the specification's joined row. -/
theorem agg_apply (X : FVec Ideal S100000x128 .f32) (s d : IVec S1600000x1 32) (b : Fin 100000) (k : Fin 128) :
    addf (Host.scatterAdd scatter_S100000x128_S1600000x1_S1600000x128_1_0_0_1
        (broadcastInDim S100000x128 ![] bcast_S_S100000x128 (constant (F := Ideal) S_ .f32 0x00000000#32)) d
        (Host.gather gather_S100000x128_S1600000x1_S1600000x128_1_0_n_n_0_1_1128 X s)) X (ix2 b k)
      = Cert.Gin.aggRow s d X b k :=
  join_apply (N := 100000) (C := 128) (R := 1600000) (by norm_num)
    scatter_S100000x128_S1600000x1_S1600000x128_1_0_0_1_wf gather_S100000x128_S1600000x1_S1600000x128_1_0_n_n_0_1_1128_wf
    bcast_S_S100000x128 X s d b k

/-! ## A dense layer and the cut -/

/-- A general dot with a weight matrix plus a bias vector broadcast down the rows, read at `(p, q)`, is the dense
    layer of row `p`. -/
theorem dense_apply {M K N : ℕ} (D : DotDims ⟨2, ![M, K]⟩ ⟨2, ![K, N]⟩ ⟨2, ![M, N]⟩) (hD : D = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (bias : FVec Ideal ⟨1, ![N]⟩ .f32)
    (p : Fin M) (q : Fin N) :
    addf (Host.dotGeneral D none A W)
        (broadcastInDim ⟨2, ![M, N]⟩ ![0, 1] h2 (broadcastInDim ⟨2, ![1, N]⟩ ![1] h1 bias)) (ix2 p q)
      = Cert.Gin.dense (fun k => A (ix2 p k)) W bias q := by
  rw [dotGeneral_eq_mm D hD, broadcastInDim_eq_rows]
  rfl

/-- The maximum against a broadcast zero, read at an index, is the maximum of the entry with zero. -/
theorem cut_apply {s : Shape} (X : FVec Ideal s .f32)
    (h : (⟨0, ![]⟩ : Shape).BroadcastsInDim s (![] : Fin 0 → Fin s.rank)) (i : s.Idx) :
    maximumf X (broadcastInDim s ![] h (constant (F := Ideal) ⟨0, ![]⟩ .f32 0x00000000#32)) i = max (X i) 0 := by
  rw [maximumf_bcast_zero]
  rfl

/-! ## The softmax of a row against its maximum -/

/-- The bottom pattern is neutral for the maximum. -/
theorem max_negInf (y : EReal) : max (Ideal.ofBits .f32 0xFF800000#32) y = y := by
  simp [Ideal.ofBits, Ideal.ieee]

/-- The host's maximum along the rows from the bottom pattern, taken once more against the bottom pattern, read at
    row `p`, is that row's maximum. -/
theorem rowMax_apply {M N : ℕ} (h' : (⟨2, ![M, N]⟩ : Shape).ReducesTo [(1 : Fin 2)] ⟨1, ![M]⟩)
    (h : (⟨2, ![M, N]⟩ : Shape).Reduces [(1 : Fin 2)] ⟨1, ![M]⟩) (hu : 0 < (⟨0, ![]⟩ : Shape).numel)
    (hb : (⟨0, ![]⟩ : Shape).BroadcastsInDim ⟨1, ![M]⟩ (![] : Fin 0 → Fin 1))
    (Y : FVec Ideal ⟨2, ![M, N]⟩ .f32) (p : Fin M) :
    maximumf (broadcastInDim ⟨1, ![M]⟩ ![] hb (constant (F := Ideal) ⟨0, ![]⟩ .f32 0xFF800000#32))
        (Host.reduce FloatOps.maximumf Y (constant (F := Ideal) ⟨0, ![]⟩ .f32 0xFF800000#32) h' hu) (ix1 p)
      = Cert.Gin.rowMax (fun k => Y (ix2 p k)) := by
  show max (broadcastInDim ⟨1, ![M]⟩ ![] hb (constant (F := Ideal) ⟨0, ![]⟩ .f32 0xFF800000#32) (ix1 p))
      (Host.reduce FloatOps.maximumf Y (constant (F := Ideal) ⟨0, ![]⟩ .f32 0xFF800000#32) h' hu (ix1 p)) = _
  rw [broadcastInDim_scalar_apply, Host.reduce_eq_fold_single FloatOps.maximumf Y _ h' h hu]
  have hf : (Y ∘ h.lift (ix1 p)) = fun k : Fin N => Y (ix2 p k) := funext fun k => congrArg Y (lift_row h p k)
  refine (max_negInf _).trans ?_
  exact congrArg (fun f => Finset.fold max (Ideal.ofBits .f32 0xFF800000#32) f (Finset.univ : Finset (Fin N))) hf

/-- A vector broadcast to a column and then along the rows reads, at `(p, q)`, the vector at `p`. -/
theorem bcast_colrow_apply {M N : ℕ}
    (hc : (⟨1, ![M]⟩ : Shape).BroadcastsInDim ⟨2, ![M, 1]⟩ (![0] : Fin 1 → Fin 2))
    (hr : (⟨2, ![M, 1]⟩ : Shape).BroadcastsInDim ⟨2, ![M, N]⟩ (![0, 1] : Fin 2 → Fin 2))
    (v : FVec Ideal ⟨1, ![M]⟩ .f32) (p : Fin M) (q : Fin N) :
    broadcastInDim ⟨2, ![M, N]⟩ ![0, 1] hr (broadcastInDim ⟨2, ![M, 1]⟩ ![0] hc v) (ix2 p q) = v (ix1 p) := by
  rw [broadcastInDim_col_apply, broadcastInDim_vecCol_apply]

/-- The exponential of an array less its rows' maxima, read at `(p, q)`. -/
theorem shifted_apply {M N : ℕ} (h' : (⟨2, ![M, N]⟩ : Shape).ReducesTo [(1 : Fin 2)] ⟨1, ![M]⟩)
    (h : (⟨2, ![M, N]⟩ : Shape).Reduces [(1 : Fin 2)] ⟨1, ![M]⟩) (hu : 0 < (⟨0, ![]⟩ : Shape).numel)
    (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2))
    (hr : (⟨2, ![M, 1]⟩ : Shape).BroadcastsInDim ⟨2, ![M, N]⟩ (![0, 1] : Fin 2 → Fin 2))
    (Y : FVec Ideal ⟨2, ![M, N]⟩ .f32) (p : Fin M) (q : Fin N) :
    Host.exp (subf Y (broadcastInDim ⟨2, ![M, N]⟩ ![0, 1] hr (broadcastInDim ⟨2, ![M, 1]⟩ ![0] hc
        (maximumf (broadcastInDim ⟨1, ![M]⟩ ![] hb (constant (F := Ideal) ⟨0, ![]⟩ .f32 0xFF800000#32))
          (Host.reduce FloatOps.maximumf Y (constant (F := Ideal) ⟨0, ![]⟩ .f32 0xFF800000#32) h' hu))))) (ix2 p q)
      = Ideal.exp (Y (ix2 p q) - Cert.Gin.rowMax (fun k => Y (ix2 p k))) := by
  show Ideal.exp (Y (ix2 p q) - broadcastInDim ⟨2, ![M, N]⟩ ![0, 1] hr (broadcastInDim ⟨2, ![M, 1]⟩ ![0] hc
        (maximumf (broadcastInDim ⟨1, ![M]⟩ ![] hb (constant (F := Ideal) ⟨0, ![]⟩ .f32 0xFF800000#32))
          (Host.reduce FloatOps.maximumf Y (constant (F := Ideal) ⟨0, ![]⟩ .f32 0xFF800000#32) h' hu))) (ix2 p q)) = _
  rw [bcast_colrow_apply, rowMax_apply h' h hu hb Y p]

/-- An array divided by its row sums (from zero) broadcast back, read at `(p, q)`. -/
theorem normalise_apply {M N : ℕ} (h' : (⟨2, ![M, N]⟩ : Shape).ReducesTo [(1 : Fin 2)] ⟨1, ![M]⟩)
    (h : (⟨2, ![M, N]⟩ : Shape).Reduces [(1 : Fin 2)] ⟨1, ![M]⟩) (hu : 0 < (⟨0, ![]⟩ : Shape).numel)
    (hc : (⟨1, ![M]⟩ : Shape).BroadcastsInDim ⟨2, ![M, 1]⟩ (![0] : Fin 1 → Fin 2))
    (hr : (⟨2, ![M, 1]⟩ : Shape).BroadcastsInDim ⟨2, ![M, N]⟩ (![0, 1] : Fin 2 → Fin 2))
    (E : FVec Ideal ⟨2, ![M, N]⟩ .f32) (p : Fin M) (q : Fin N) :
    Host.divf E (broadcastInDim ⟨2, ![M, N]⟩ ![0, 1] hr (broadcastInDim ⟨2, ![M, 1]⟩ ![0] hc
        (Host.reduceAdd E (constant (F := Ideal) ⟨0, ![]⟩ .f32 0x00000000#32) h' hu))) (ix2 p q)
      = Ideal.div (E (ix2 p q)) (∑ k : Fin N, E (ix2 p k)) := by
  show Ideal.div (E (ix2 p q)) (broadcastInDim ⟨2, ![M, N]⟩ ![0, 1] hr (broadcastInDim ⟨2, ![M, 1]⟩ ![0] hc
        (Host.reduceAdd E (constant (F := Ideal) ⟨0, ![]⟩ .f32 0x00000000#32) h' hu)) (ix2 p q)) = _
  rw [bcast_colrow_apply]
  show Ideal.div (E (ix2 p q)) (Ideal.hostReduceAdd h' E (Ideal.ofBits .f32 0x00000000#32) (ix1 p)) = _
  rw [hostReduceAdd_row_apply h' h, Ideal.ofBits_zero_f32, zero_add]

/-- The softmax stages on an array, read at `(p, q)`: the softmax of row `p` at `q`. -/
theorem softmax_apply {M N : ℕ} (h' : (⟨2, ![M, N]⟩ : Shape).ReducesTo [(1 : Fin 2)] ⟨1, ![M]⟩)
    (h : (⟨2, ![M, N]⟩ : Shape).Reduces [(1 : Fin 2)] ⟨1, ![M]⟩) (hu : 0 < (⟨0, ![]⟩ : Shape).numel)
    (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2))
    (hr : (⟨2, ![M, 1]⟩ : Shape).BroadcastsInDim ⟨2, ![M, N]⟩ (![0, 1] : Fin 2 → Fin 2))
    (Y E : FVec Ideal ⟨2, ![M, N]⟩ .f32)
    (hE : E = Host.exp (subf Y (broadcastInDim ⟨2, ![M, N]⟩ ![0, 1] hr (broadcastInDim ⟨2, ![M, 1]⟩ ![0] hc
        (maximumf (broadcastInDim ⟨1, ![M]⟩ ![] hb (constant (F := Ideal) ⟨0, ![]⟩ .f32 0xFF800000#32))
          (Host.reduce FloatOps.maximumf Y (constant (F := Ideal) ⟨0, ![]⟩ .f32 0xFF800000#32) h' hu))))))
    (p : Fin M) (q : Fin N) :
    Host.divf E (broadcastInDim ⟨2, ![M, N]⟩ ![0, 1] hr (broadcastInDim ⟨2, ![M, 1]⟩ ![0] hc
        (Host.reduceAdd E (constant (F := Ideal) ⟨0, ![]⟩ .f32 0x00000000#32) h' hu))) (ix2 p q)
      = Cert.Gin.softrow (fun k => Y (ix2 p k)) q := by
  rw [normalise_apply h' h hu hc hr E p q]
  have e : ∀ k : Fin N, E (ix2 p k) = Ideal.exp (Y (ix2 p k) - Cert.Gin.rowMax (fun k => Y (ix2 p k))) := fun k => by
    rw [hE]; exact shifted_apply h' h hu hb hc hr Y p k
  rw [e q, Finset.sum_congr rfl fun k _ => e k]
  rfl

/-! ## The program's stages -/

theorem dot1_plain : dot_S100000x128_S128x128_S100000x128_1_0_0_1_n_n = DotDims.plain 100000 128 128 := rfl
theorem dot2_plain : dot_S100000x128_S128x40_S100000x40_1_0_0_1_n_n = DotDims.plain 100000 128 40 := rfl
theorem dot3_plain : dot_S100000x40_S40x40_S100000x40_1_0_0_1_n_n = DotDims.plain 100000 40 40 := rfl

section Stages

variable (x0 : FVec Ideal S100000x128 .f32) (x1 : IVec S1600000x2 32) (x2 : FVec Ideal S128x128 .f32)
  (x3 : FVec Ideal S128 .f32) (x4 : FVec Ideal S128x128 .f32) (x5 : FVec Ideal S128 .f32)
  (x6 : FVec Ideal S128x40 .f32) (x7 : FVec Ideal S40 .f32) (x8 : FVec Ideal S40x40 .f32) (x9 : FVec Ideal S40 .f32)

/-- The first join: the input table's rows joined with their neighbourhoods. -/
theorem v14_eq : val_main_v14 (F := Ideal) x0 x1
    = fun i => Cert.Gin.aggRow (srcOf x1) (dstOf x1) x0 (i 0) (i 1) := by
  funext i
  obtain ⟨b, k, rfl⟩ : ∃ (b : Fin 100000) (k : Fin 128), i = ix2 b k := ⟨i 0, i 1, eq_ix2 i⟩
  unfold val_main_v14 val_main_v13 val_main_v10 val_main_v11 val_main_cst
  rw [v9_eq, v12_eq]
  exact agg_apply x0 (srcOf x1) (dstOf x1) b k

/-- The first layer's inner stage: dense, cut. -/
theorem v19_eq : val_main_v19 (F := Ideal) x0 x1 x2 x3
    = fun i => Cert.Gin.cut (Cert.Gin.dense (Cert.Gin.aggRow (srcOf x1) (dstOf x1) x0 (i 0)) x2 x3) (i 1) := by
  funext i
  obtain ⟨p, q, rfl⟩ : ∃ (p : Fin 100000) (q : Fin 128), i = ix2 p q := ⟨i 0, i 1, eq_ix2 i⟩
  unfold val_main_v19 val_main_call0_v0 val_main_call0_cst
  rw [cut_apply]
  unfold val_main_v18 val_main_v17 val_main_v16 val_main_v15
  rw [dense_apply dot_S100000x128_S128x128_S100000x128_1_0_0_1_n_n dot1_plain, v14_eq]
  rfl

/-- The hidden table. -/
theorem v24_eq : val_main_v24 (F := Ideal) x0 x1 x2 x3 x4 x5
    = Cert.Gin.X1 (srcOf x1) (dstOf x1) x0 x2 x3 x4 x5 := by
  funext i
  obtain ⟨p, q, rfl⟩ : ∃ (p : Fin 100000) (q : Fin 128), i = ix2 p q := ⟨i 0, i 1, eq_ix2 i⟩
  unfold val_main_v24 val_main_call1_v0 val_main_call1_cst
  rw [cut_apply]
  unfold val_main_v23 val_main_v22 val_main_v21 val_main_v20
  rw [dense_apply dot_S100000x128_S128x128_S100000x128_1_0_0_1_n_n dot1_plain, v19_eq]
  rfl

/-- The second join: the hidden table's rows joined with their neighbourhoods. -/
theorem v35_eq : val_main_v35 (F := Ideal) x0 x1 x2 x3 x4 x5
    = fun i => Cert.Gin.aggRow (srcOf x1) (dstOf x1) (Cert.Gin.X1 (srcOf x1) (dstOf x1) x0 x2 x3 x4 x5) (i 0) (i 1) := by
  funext i
  obtain ⟨b, k, rfl⟩ : ∃ (b : Fin 100000) (k : Fin 128), i = ix2 b k := ⟨i 0, i 1, eq_ix2 i⟩
  unfold val_main_v35 val_main_v34 val_main_v31 val_main_v32 val_main_cst_3
  rw [v30_eq, v33_eq, v24_eq]
  exact agg_apply (Cert.Gin.X1 (srcOf x1) (dstOf x1) x0 x2 x3 x4 x5) (srcOf x1) (dstOf x1) b k

/-- The second layer's 40-wide row, cut. -/
theorem v40_eq : val_main_v40 (F := Ideal) x0 x1 x2 x3 x4 x5 x6 x7
    = fun i => Cert.Gin.cut (Cert.Gin.preRef (srcOf x1) (dstOf x1)
        (Cert.Gin.X1 (srcOf x1) (dstOf x1) x0 x2 x3 x4 x5) x6 x7 (i 0)) (i 1) := by
  funext i
  obtain ⟨p, q, rfl⟩ : ∃ (p : Fin 100000) (q : Fin 40), i = ix2 p q := ⟨i 0, i 1, eq_ix2 i⟩
  unfold val_main_v40 val_main_call2_v0 val_main_call2_cst
  rw [cut_apply]
  unfold val_main_v39 val_main_v38 val_main_v37 val_main_v36
  rw [dense_apply dot_S100000x128_S128x40_S100000x40_1_0_0_1_n_n dot2_plain, v35_eq]
  rfl

/-- The last dense layer. -/
theorem v44_eq : val_main_v44 (F := Ideal) x0 x1 x2 x3 x4 x5 x6 x7 x8 x9
    = fun i => Cert.Gin.dense (Cert.Gin.cut (Cert.Gin.preRef (srcOf x1) (dstOf x1)
        (Cert.Gin.X1 (srcOf x1) (dstOf x1) x0 x2 x3 x4 x5) x6 x7 (i 0))) x8 x9 (i 1) := by
  funext i
  obtain ⟨p, q, rfl⟩ : ∃ (p : Fin 100000) (q : Fin 40), i = ix2 p q := ⟨i 0, i 1, eq_ix2 i⟩
  unfold val_main_v44 val_main_v43 val_main_v42 val_main_v41
  rw [dense_apply dot_S100000x40_S40x40_S100000x40_1_0_0_1_n_n dot3_plain, v40_eq]

/-- The exponential stage is the exponential of the last dense layer less its rows' maxima. -/
theorem v51_eq : val_main_v51 (F := Ideal) x0 x1 x2 x3 x4 x5 x6 x7 x8 x9
    = Host.exp (subf (val_main_v44 (F := Ideal) x0 x1 x2 x3 x4 x5 x6 x7 x8 x9)
        (broadcastInDim S100000x40 ![0, 1] bcast_S100000x1_S100000x40_0_1 (broadcastInDim S100000x1 ![0] bcast_S100000_S100000x1_0
          (maximumf (broadcastInDim S100000 ![] bcast_S_S100000 (constant (F := Ideal) S_ .f32 0xFF800000#32))
            (Host.reduce FloatOps.maximumf (val_main_v44 (F := Ideal) x0 x1 x2 x3 x4 x5 x6 x7 x8 x9)
              (constant (F := Ideal) S_ .f32 0xFF800000#32) reducesTo_S100000x40_S100000_d1 h_S_))))) := by
  unfold val_main_v51 val_main_v50 val_main_v49 val_main_v48 val_main_v47 val_main_v46 val_main_v45 val_main_cst_4 val_main_cst_5
  rfl

/-- The result stage is the specification's result table. -/
theorem v55_eq : val_main_v55 (F := Ideal) x0 x1 x2 x3 x4 x5 x6 x7 x8 x9
    = Cert.Gin.outRef (srcOf x1) (dstOf x1) (Cert.Gin.X1 (srcOf x1) (dstOf x1) x0 x2 x3 x4 x5) x6 x7 x8 x9 := by
  funext i
  obtain ⟨p, q, rfl⟩ : ∃ (p : Fin 100000) (q : Fin 40), i = ix2 p q := ⟨i 0, i 1, eq_ix2 i⟩
  unfold val_main_v55 val_main_v54 val_main_v53 val_main_v52 val_main_cst_6
  rw [softmax_apply reducesTo_S100000x40_S100000_d1 (by decide) h_S_ bcast_S_S100000 bcast_S100000_S100000x1_0
    bcast_S100000x1_S100000x40_0_1 (val_main_v44 (F := Ideal) x0 x1 x2 x3 x4 x5 x6 x7 x8 x9)
    (val_main_v51 (F := Ideal) x0 x1 x2 x3 x4 x5 x6 x7 x8 x9) (v51_eq x0 x1 x2 x3 x4 x5 x6 x7 x8 x9) p q, v44_eq]
  rfl

end Stages

/-! ## The result -/

/-- The reference program's result is the specification's result table of its arguments. -/
theorem res_eq (m : (ℓ : Loc nD τ sig) → Buf (Elt Ideal) ℓ) (c : Dev nD) :
    Cert.ReferenceIdeal.Value.res_out0 (F := Ideal) m c
      = Cert.Gin.outRef (si m c) (di m c)
          (Cert.Gin.X1 (si m c) (di m c) (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)))
          (m ((c.tc : Thread nD τ).loc main_arg6)) (m ((c.tc : Thread nD τ).loc main_arg7))
          (m ((c.tc : Thread nD τ).loc main_arg8)) (m ((c.tc : Thread nD τ).loc main_arg9)) :=
  (val_main_v55_eq m c).trans (v55_eq _ _ _ _ _ _ _ _ _ _)

end Cert.Gin.Ref

end
-- ==== Proof.Law.lean ====
/-
  The one piece of arithmetic on which the two programs' second layers agree.

  Over the extended reals multiplication does not distribute over a sum once infinities are present, so
  "join the neighbourhood, then multiply the row by a matrix" and "multiply every row by the matrix, then join" are
  different functions in general. When every entry of the table and of the matrix is a real number they are the
  same function, by linearity of a finite sum of real products. The bias is added last on both sides and may be any
  extended real. The hidden table of the first layer is real-valued whenever its inputs are, because finite sums,
  products and maxima with zero of reals are reals.
-/
import proofs.«145564_j45346264711281_2_alg».proof.Proof.Spec

noncomputable section

namespace Cert.Gin

open Idealize.ShloMosaic Idealize.ShloMosaic.ValueIdx

namespace Law

/-! ### Finite sums of reals, seen in the extended reals -/

/-- The inclusion of the reals commutes with a finite sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Linearity, row by row: for real rows x_r (r in a finite set), a real row y and a real column w,
    the sum over k of (sum over r of x_r(k), plus y(k)) times w(k) equals the sum over r of the sums over k of
    x_r(k) w(k), plus the sum over k of y(k) w(k); the identity is read in the extended reals. -/
theorem vecmat_join {K : ℕ} {ι : Type*} (s : Finset ι) (x : ι → Fin K → ℝ) (y : Fin K → ℝ) (w : Fin K → ℝ) :
    (∑ k : Fin K, ((∑ r ∈ s, (x r k : EReal)) + (y k : EReal)) * (w k : EReal))
      = (∑ r ∈ s, ∑ k : Fin K, (x r k : EReal) * (w k : EReal)) + ∑ k : Fin K, (y k : EReal) * (w k : EReal) := by
  have hreal : (∑ k : Fin K, ((∑ r ∈ s, x r k) + y k) * w k)
      = (∑ r ∈ s, ∑ k : Fin K, x r k * w k) + ∑ k : Fin K, y k * w k := by
    simp only [add_mul, Finset.sum_add_distrib, Finset.sum_mul]
    rw [Finset.sum_comm]
  simp only [coe_sum, ← EReal.coe_add, ← EReal.coe_mul]
  exact congrArg _ hreal

/-! ### The two orders of the second layer agree on real tables -/

/-- The projected table at the index (p, q): row p of the table times the matrix, at column q. -/
theorem Z_ix2 (X : (⟨2, ![100000, 128]⟩ : Shape).Idx → EReal) (W2a : (⟨2, ![128, 40]⟩ : Shape).Idx → EReal)
    (p : Fin 100000) (q : Fin 40) :
    Z X W2a (ix2 p q) = ∑ k : Fin 128, X (ix2 p k) * W2a (ix2 k q) := rfl

/-- Join-then-project equals project-then-join on every node's row, for a real table and real weights. -/
theorem preRef_eq_preKer (si di : IVec ⟨2, ![1600000, 1]⟩ 32) (X : (⟨2, ![100000, 128]⟩ : Shape).Idx → EReal)
    (W2a : (⟨2, ![128, 40]⟩ : Shape).Idx → EReal) (b2a : (⟨1, ![40]⟩ : Shape).Idx → EReal)
    (hX : ∀ i, ∃ r : ℝ, X i = (r : EReal)) (hW : ∀ i, ∃ r : ℝ, W2a i = (r : EReal)) (b : Fin 100000) :
    preRef si di X W2a b2a b = preKer si di X W2a b2a b := by
  choose Xr hXr using hX
  choose Wr hWr using hW
  funext q
  have key : (∑ k : Fin 128, ((∑ r ∈ inEdges di b, X (ix2 (srcRow si r) k)) + X (ix2 b k)) * W2a (ix2 k q))
      = (∑ r ∈ inEdges di b, Z X W2a (ix2 (srcRow si r) q)) + Z X W2a (ix2 b q) := by
    simp only [Z_ix2, hXr, hWr]
    exact vecmat_join (inEdges di b) (fun r k => Xr (ix2 (srcRow si r) k)) (fun k => Xr (ix2 b k))
      (fun k => Wr (ix2 k q))
  exact congrArg (· + b2a (ix1 q)) key

end Law

/-- The two result tables agree: the rows fed to the common tail are equal. -/
theorem outRef_eq_outKer (si di : IVec ⟨2, ![1600000, 1]⟩ 32) (X : (⟨2, ![100000, 128]⟩ : Shape).Idx → EReal)
    (W2a : (⟨2, ![128, 40]⟩ : Shape).Idx → EReal) (b2a : (⟨1, ![40]⟩ : Shape).Idx → EReal)
    (W2b : (⟨2, ![40, 40]⟩ : Shape).Idx → EReal) (b2b : (⟨1, ![40]⟩ : Shape).Idx → EReal)
    (hX : ∀ i, ∃ r : ℝ, X i = (r : EReal)) (hW : ∀ i, ∃ r : ℝ, W2a i = (r : EReal)) :
    outRef si di X W2a b2a W2b b2b = outKer si di X W2a b2a W2b b2b := by
  funext i
  exact congrArg (fun h => tail W2b b2b h (i 1)) (Law.preRef_eq_preKer si di X W2a b2a hX hW (i 0))

namespace Law

/-! ### Reals are closed under the operations of the first layer -/

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The maximum of a real with zero is a real (the inclusion of the reals is monotone). -/
theorem real_max_zero {a : EReal} (ha : ∃ r : ℝ, a = (r : EReal)) : ∃ r : ℝ, max a 0 = (r : EReal) := by
  obtain ⟨x, rfl⟩ := ha
  refine ⟨max x 0, ?_⟩
  rw [EReal.coe_strictMono.monotone.map_max, EReal.coe_zero]

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_vecmat {K N : ℕ} (v : Fin K → EReal) (W : (⟨2, ![K, N]⟩ : Shape).Idx → EReal)
    (hv : ∀ k, ∃ r : ℝ, v k = (r : EReal)) (hW : ∀ i, ∃ r : ℝ, W i = (r : EReal)) (q : Fin N) :
    ∃ r : ℝ, vecmat v W q = (r : EReal) :=
  real_sum _ _ fun k _ => real_mul (hv k) (hW _)

theorem real_dense {K N : ℕ} (v : Fin K → EReal) (W : (⟨2, ![K, N]⟩ : Shape).Idx → EReal)
    (b : (⟨1, ![N]⟩ : Shape).Idx → EReal)
    (hv : ∀ k, ∃ r : ℝ, v k = (r : EReal)) (hW : ∀ i, ∃ r : ℝ, W i = (r : EReal))
    (hb : ∀ i, ∃ r : ℝ, b i = (r : EReal)) (q : Fin N) :
    ∃ r : ℝ, dense v W b q = (r : EReal) :=
  real_add (real_vecmat v W hv hW q) (hb _)

theorem real_cut {N : ℕ} (v : Fin N → EReal) (hv : ∀ k, ∃ r : ℝ, v k = (r : EReal)) (q : Fin N) :
    ∃ r : ℝ, cut v q = (r : EReal) :=
  real_max_zero (hv q)

theorem real_aggRow {C : ℕ} (si di : IVec ⟨2, ![1600000, 1]⟩ 32) (X : (⟨2, ![100000, C]⟩ : Shape).Idx → EReal)
    (hX : ∀ i, ∃ r : ℝ, X i = (r : EReal)) (b : Fin 100000) (k : Fin C) :
    ∃ r : ℝ, aggRow si di X b k = (r : EReal) :=
  real_add (real_sum _ _ fun _ _ => hX _) (hX _)

theorem real_hidden (W1a : (⟨2, ![128, 128]⟩ : Shape).Idx → EReal) (b1a : (⟨1, ![128]⟩ : Shape).Idx → EReal)
    (W1b : (⟨2, ![128, 128]⟩ : Shape).Idx → EReal) (b1b : (⟨1, ![128]⟩ : Shape).Idx → EReal)
    (h : Fin 128 → EReal)
    (hWa : ∀ i, ∃ r : ℝ, W1a i = (r : EReal)) (hba : ∀ i, ∃ r : ℝ, b1a i = (r : EReal))
    (hWb : ∀ i, ∃ r : ℝ, W1b i = (r : EReal)) (hbb : ∀ i, ∃ r : ℝ, b1b i = (r : EReal))
    (hh : ∀ k, ∃ r : ℝ, h k = (r : EReal)) (q : Fin 128) :
    ∃ r : ℝ, hidden W1a b1a W1b b1b h q = (r : EReal) :=
  real_cut _ (real_dense _ W1b b1b (real_cut _ (real_dense h W1a b1a hh hWa hba)) hWb hbb) q

end Law

/-- The hidden table is real-valued whenever the input table and the first layer's weights and biases are. -/
theorem X1_real (si di : IVec ⟨2, ![1600000, 1]⟩ 32) (x0 : (⟨2, ![100000, 128]⟩ : Shape).Idx → EReal)
    (W1a : (⟨2, ![128, 128]⟩ : Shape).Idx → EReal) (b1a : (⟨1, ![128]⟩ : Shape).Idx → EReal)
    (W1b : (⟨2, ![128, 128]⟩ : Shape).Idx → EReal) (b1b : (⟨1, ![128]⟩ : Shape).Idx → EReal)
    (hx : ∀ i, ∃ r : ℝ, x0 i = (r : EReal)) (hWa : ∀ i, ∃ r : ℝ, W1a i = (r : EReal))
    (hba : ∀ i, ∃ r : ℝ, b1a i = (r : EReal))
    (hWb : ∀ i, ∃ r : ℝ, W1b i = (r : EReal)) (hbb : ∀ i, ∃ r : ℝ, b1b i = (r : EReal)) :
    ∀ i, ∃ r : ℝ, X1 si di x0 W1a b1a W1b b1b i = (r : EReal) :=
  fun i => Law.real_hidden W1a b1a W1b b1b (aggRow si di x0 (i 0)) hWa hba hWb hbb
    (Law.real_aggRow si di x0 hx (i 0)) (i 1)

end Cert.Gin

end
-- ==== Proof.Finite.lean ====
/-
  Under the precondition, every entry of the float arguments the law needs is a real number.

  The precondition is the conjunction, over the nine float arguments, of "every entry x has |x| < +∞", each
  written as a reduction by `and` of the entrywise comparison down to a single truth value. Over the extended
  reals |x| = max x (-x), and max x (-x) < ⊤ says that x is neither ⊤ nor ⊥, that is, x is (the image of) a
  real number.
-/
import proofs.«145564_j45346264711281_2_alg».proof.Defs
import Idealize.ShloMosaic.Lib.ReduceAll

noncomputable section

namespace Cert.Gin

open Idealize.ShloMosaic Idealize.SL.Sem

/-- The pattern 0x7F800000 denotes plus infinity. -/
theorem ofBits_inf : Ideal.ofBits .f32 0x7F800000#32 = (⊤ : EReal) := by simp [Ideal.ofBits, Ideal.ieee]

/-- One value: the comparison |x| < +∞ coming out true says that x is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  rw [max_lt_iff] at hlt
  have h1 : (x : EReal) ≠ ⊤ := ne_of_lt hlt.1
  have h2 : (x : EReal) ≠ ⊥ := by
    intro hb
    rw [hb] at hlt
    simp at hlt
  exact ⟨(x : EReal).toReal, (EReal.coe_toReal h1 h2).symm⟩

/-- The shape of a single truth value has one index. -/
instance : Subsingleton Cert.Pre_finite_inputs.S_.Idx := ⟨fun a b => funext fun d => d.elim0⟩

/-- An array whose "all entries have |x| < +∞" reduction came out true has only real entries. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1)
    (i : s.Idx) : ∃ r : ℝ, (x i : EReal) = (r : EReal) :=
  real_of_abs_lt_inf (x i) (Host.reduce_andi_all _ _ hr hu j e i)

/-- Under the precondition the six float arguments the law reads have only real entries. -/
theorem reals_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S100000x128.Idx, ∃ r : ℝ, (m ((c.tc : Thread Cert.KernelIdeal.nD Cert.KernelIdeal.τ).loc Cert.KernelIdeal.main_arg0) : Cert.KernelIdeal.S100000x128.Idx → EReal) i = (r : EReal))
    ∧ (∀ i : Cert.KernelIdeal.S128x128.Idx, ∃ r : ℝ, (m ((c.tc : Thread Cert.KernelIdeal.nD Cert.KernelIdeal.τ).loc Cert.KernelIdeal.main_arg2) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg3) : Cert.KernelIdeal.S128.Idx → EReal) i = (r : EReal))
    ∧ (∀ i : Cert.KernelIdeal.S128x128.Idx, ∃ r : ℝ, (m ((c.tc : Thread Cert.KernelIdeal.nD Cert.KernelIdeal.τ).loc Cert.KernelIdeal.main_arg4) : Cert.KernelIdeal.S128x128.Idx → EReal) i = (r : EReal))
    ∧ (∀ i : Cert.KernelIdeal.S128.Idx, ∃ r : ℝ, (m ((c.tc : Thread Cert.KernelIdeal.nD Cert.KernelIdeal.τ).loc Cert.KernelIdeal.main_arg5) : Cert.KernelIdeal.S128.Idx → EReal) i = (r : EReal))
    ∧ (∀ i : Cert.KernelIdeal.S128x40.Idx, ∃ r : ℝ, (m ((c.tc : Thread Cert.KernelIdeal.nD Cert.KernelIdeal.τ).loc Cert.KernelIdeal.main_arg6) : Cert.KernelIdeal.S128x40.Idx → EReal) i = (r : EReal)) := by
  have e := congrFun (h c) (fun a => a.elim0 : Cert.Pre_finite_inputs.S_.Idx)
  dsimp only [Cert.Pre_finite_inputs.fn, Cert.Pre_finite_inputs.fn_part1, Cert.Pre_finite_inputs.fn_part2] at e
  obtain ⟨e38, -⟩ := IntOp.andi_eq_one.1 e
  obtain ⟨e33, -⟩ := IntOp.andi_eq_one.1 e38
  obtain ⟨e28, -⟩ := IntOp.andi_eq_one.1 e33
  obtain ⟨e23, e27⟩ := IntOp.andi_eq_one.1 e28
  obtain ⟨e18, e22⟩ := IntOp.andi_eq_one.1 e23
  obtain ⟨e13, e17⟩ := IntOp.andi_eq_one.1 e18
  obtain ⟨e8, e12⟩ := IntOp.andi_eq_one.1 e13
  obtain ⟨e3, e7⟩ := IntOp.andi_eq_one.1 e8
  exact ⟨reals_of_all _ _ _ _ _ e3, reals_of_all _ _ _ _ _ e7, reals_of_all _ _ _ _ _ e12,
    reals_of_all _ _ _ _ _ e17, reals_of_all _ _ _ _ _ e22, reals_of_all _ _ _ _ _ e27⟩

end Cert.Gin
-- ==== Proof.lean ====
/-
  A two-layer graph network with a row softmax, computed two ways, gives the same table over the extended reals
  whenever every float input is finite.

  Both programs read the edge array into a column of source indices and a column of destination indices, and join a
  table by adding to each node's row the rows of the sources of the edges arriving at it. Both compute the hidden
  table: the joined input rows through two dense layers, each followed by the maximum with zero. They differ in the
  second layer. The reference joins the hidden rows and then multiplies by the 128 × 40 matrix and adds the bias. The
  kernel program multiplies every hidden row by the matrix first (in a grid of row blocks), joins the 40-wide rows on
  the host, and adds the bias once per node in a second grid. Both then take the maximum with zero, apply the last
  dense layer and normalise each row by the softmax against the row's maximum.

  A matrix product passes through the join because it is linear — but over the extended reals a product distributes
  over a sum only when no infinity is involved, so the equality uses the precondition: finite inputs make the hidden
  table real-valued (sums, products and maxima of reals), and with real hidden rows and a real matrix the two
  arrangements of the sums agree. The bias may be any extended real: it is added last on both sides. Everything after
  the second layer's row is one function applied to equal rows.

  A change of float format is the identity here, a matrix product accumulated into zero is the product, and a lane
  reduction is the sum (or the maximum) over the lane; the blocks of 5000 rows tile the 100000 rows, and every step of
  each grid works row by row, so each grid's result table is one function of the whole arrays it is given.
-/
import proofs.«145564_j45346264711281_2_alg».proof.Defs
import proofs.«145564_j45346264711281_2_alg».proof.Proof.Gen.Kernel
import proofs.«145564_j45346264711281_2_alg».proof.Proof.Gen.Kernel.Skeleton
import proofs.«145564_j45346264711281_2_alg».proof.Proof.Gen.Kernel.Launch
import proofs.«145564_j45346264711281_2_alg».proof.Proof.Gen.Kernel.Points
import proofs.«145564_j45346264711281_2_alg».proof.Proof.Gen.Kernel.Frame
import proofs.«145564_j45346264711281_2_alg».proof.Proof.Gen.KernelIdeal
import proofs.«145564_j45346264711281_2_alg».proof.Proof.Gen.KernelIdeal.Skeleton
import proofs.«145564_j45346264711281_2_alg».proof.Proof.Gen.KernelIdeal.Launch
import proofs.«145564_j45346264711281_2_alg».proof.Proof.Gen.KernelIdeal.Points
import proofs.«145564_j45346264711281_2_alg».proof.Proof.Gen.KernelIdeal.Frame
import proofs.«145564_j45346264711281_2_alg».proof.Proof.Gen.ReferenceIdeal
import proofs.«145564_j45346264711281_2_alg».proof.Proof.Gen.Pre_finite_inputs
import proofs.«145564_j45346264711281_2_alg».proof.Proof.Gen.ReferenceIdeal.Run
import proofs.«145564_j45346264711281_2_alg».proof.Proof.Gen.ReferenceIdeal.Read
import proofs.«145564_j45346264711281_2_alg».proof.Proof.KernelRun
import proofs.«145564_j45346264711281_2_alg».proof.Proof.Boundaries
import proofs.«145564_j45346264711281_2_alg».proof.Proof.RefValue
import proofs.«145564_j45346264711281_2_alg».proof.Proof.Law
import proofs.«145564_j45346264711281_2_alg».proof.Proof.Finite
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, of which the precondition holds, both programs end with the
    "project, then join" table of the kernel program's launch arrays: the kernel program by its run, the reference
    because its "join, then project" table of the same arrays equals it when the hidden table and the matrix are
    real-valued, which finite inputs give. -/
theorem algebraic : Cert.algebraic_KernelIdeal_ReferenceIdeal := by
  intro m ρ m' ρ' hpre hagree
  refine ⟨fun c => Cert.Gin.outKer (Cert.Gin.Ker.si m c) (Cert.Gin.Ker.di m c) (Cert.Gin.Ker.X1m m c)
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gin.Ker.result_eq m ρ c), (h c).2⟩)
      (Cert.Gin.Ker.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    obtain ⟨r0, r2, r3, r4, r5, r6⟩ := Cert.Gin.reals_of_pre m hpre c
    refine (Cert.Gin.Ref.res_eq m' c).trans ?_
    unfold Cert.Gin.Ref.si Cert.Gin.Ref.di
    rw [a0, a1, a2, a3, a4, a5, a6, a7, a8, a9]
    exact Cert.Gin.outRef_eq_outKer _ _ _ _ _ _ _
      (Cert.Gin.X1_real _ _ _ _ _ _ _ r0 r2 r3 r4 r5) r6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
